-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128 .f32) (main_arg6 : FVec F S128 .f32) (main_arg7 : FVec F S128x64 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1000x128 : Shape := ⟨2, ![1000, 128]⟩
abbrev S2000x128 : Shape := ⟨2, ![2000, 128]⟩
abbrev S1x64 : Shape := ⟨2, ![1, 64]⟩
abbrev S50000x64 : Shape := ⟨2, ![50000, 64]⟩
abbrev S1000x64 : Shape := ⟨2, ![1000, 64]⟩

abbrev nBuf : Space → Nat
  | .hbm => 84
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S1x128, .f32⟩
  | .hbm, ⟨45, _⟩ => ⟨S1x128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S1x64, .f32⟩
  | .hbm, ⟨83, _⟩ => ⟨S50000x64, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1000x128, .f32⟩
  | .local _ .vmem, ⟨8, _⟩ => ⟨S1000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S128x64, .f32⟩
  | .local _ .vmem, ⟨22, _⟩ => ⟨S128x64, .f32⟩
  | .local _ .vmem, ⟨23, _⟩ => ⟨S1x64, .f32⟩
  | .local _ .vmem, ⟨24, _⟩ => ⟨S1000x64, .f32⟩
  | .local _ .vmem, ⟨25, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S1000x128 : S1x128.Broadcasts S1000x128
  reduces_S1000x128_S128 : S1000x128.Reduces [0] S128
  shapeCasts_S1x128_S128 : S1x128.ShapeCasts S128
  bcast_S_S128 : S_.BroadcastsInDim S128 (![] : Fin 0 → Fin S128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S50000x64.size a
  hwx2_5 : ∀ i : grid2.Coords, EltTy.bits .f32 = 32 ∨ (Rect.block (s := S50000x64) S1000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v24) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S1000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S_, .f32⟩
  | .hbm, ⟨102, _⟩ => ⟨S50000x128, .f32⟩
  | .hbm, ⟨103, _⟩ => ⟨S800000x1, .i32⟩
  | .hbm, ⟨104, _⟩ => ⟨S50000x128, .f32⟩
  | .hbm, ⟨105, _⟩ => ⟨S_, .f32⟩
  | .hbm, ⟨106, _⟩ => ⟨S800000, .f32⟩
  | .hbm, ⟨107, _⟩ => ⟨S_, .f32⟩
  | .hbm, ⟨108, _⟩ => ⟨S50000, .f32⟩
  | .hbm, ⟨109, _⟩ => ⟨S800000x1, .i32⟩
  | .hbm, ⟨110, _⟩ => ⟨S50000, .f32⟩
  | .hbm, ⟨111, _⟩ => ⟨S_, .f32⟩
  | .hbm, ⟨112, _⟩ => ⟨S50000, .f32⟩
  | .hbm, ⟨113, _⟩ => ⟨S50000, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S50000x64, .f32⟩
  | .hbm, ⟨118, _⟩ => ⟨S50000x64, .f32⟩
  | .hbm, ⟨119, _⟩ => ⟨S50000x64, .f32⟩
  | .hbm, ⟨120, _⟩ => ⟨S1x64, .f32⟩
  | .hbm, ⟨121, _⟩ => ⟨S50000x64, .f32⟩
  | .hbm, ⟨122, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call1_cst : Ref sig .tc := ⟨.hbm, 89, rfl⟩
abbrev main_call1_v0 : Ref sig .tc := ⟨.hbm, 90, rfl⟩
abbrev main_v48 : Ref sig .tc := ⟨.hbm, 91, rfl⟩
abbrev main_c_8 : Ref sig .tc := ⟨.hbm, 92, rfl⟩
abbrev main_v49 : Ref sig .tc := ⟨.hbm, 93, rfl⟩
abbrev main_v50 : Ref sig .tc := ⟨.hbm, 94, rfl⟩
abbrev main_c_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_11 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_13 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's whole run, with its result named: every weakly fair execution of the three regions among their
  host stretches terminates, nothing faults, the ten argument arrays end as launched, and the result array ends at the
  contents the last boundary's fold assigns to it (`Gen.W6`: the third region's write-backs over the host stretch before
  it over the second region's … over the launch memory). The run is the launch theorem over the program's six segments,
  exactly as for the frame; only the final read-back also reads the result's buffer.
-/
import proofs.«165321_j893353197863_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result's final contents named. -/
theorem run_value : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.Spec.lean ====
/-
  Two-layer mean-aggregation GraphSAGE with a training-mode batch normalisation between the layers, entry by entry
  over the extended reals, in the two spellings that are compared.

  Both programs turn the node features `X` (50000 nodes) into the per-node NEIGHBOUR SUM `agg X` by one and the same
  gather / scatter-add of the edge list, and both divide it by the clipped in-degree `C n = max (deg n) 1`; here `agg`
  and `C` are parameters.  One spelling (Q) divides, `agg X / C`; the other (P) multiplies by the reciprocal,
  `agg X · (1 / C)`.  A layer is `mean · W_l + X · W_r + b`.  Between the layers the hidden array `h` is normalised per
  column with the batch mean `μ = (Σ_n h) / N` and either the variance as the mean of squared deviations (R) or as
  `(Σ_n h²) / N − μ²` (K), then cut at zero:
      R:  max (γ · (h − μ) · rsqrt (var + ε) + β) 0
      K:  max (h · s + (β − μ · s)) 0   with   s = γ · rsqrt (var + ε).
  Float literals are kept as the words the programs spell (`Ideal.ofBits`); arrays are functions of an index, and a
  table `Tab a b` is the same array read at explicit coordinates.
-/
import Idealize.ShloMosaic.PureOps.Ideal
import Idealize.ShloMosaic.Lib.ValueIdx

noncomputable section

open scoped BigOperators

namespace Cert.SageSpec

open Idealize.ShloMosaic Idealize.ShloMosaic.ValueIdx

/-- A rank-2 array of extended reals, as a function of its index. -/
abbrev Mat (a b : Nat) : Type := (⟨2, ![a, b]⟩ : Shape).Idx → EReal
/-- A rank-1 array of extended reals. -/
abbrev Vct (a : Nat) : Type := (⟨1, ![a]⟩ : Shape).Idx → EReal
/-- A rank-2 array read at explicit coordinates. -/
abbrev Tab (a b : Nat) : Type := Fin a → Fin b → EReal

/-- An array read at coordinates. -/
def tab {a b : Nat} (X : Mat a b) : Tab a b := fun n k => X (ix2 n k)
/-- A table as an array: the entry at the index's two coordinates. -/
def mat {a b : Nat} (T : Tab a b) : Mat a b := fun i => T ⟨(i 0).val, idx2_lt0 i⟩ ⟨(i 1).val, idx2_lt1 i⟩

theorem mat_ix2 {a b : Nat} (T : Tab a b) (n : Fin a) (k : Fin b) : mat T (ix2 n k) = T n k := rfl
theorem tab_mat {a b : Nat} (T : Tab a b) : tab (mat T) = T := rfl

/-- The float words the two programs spell: 0, 1, the node count 50000 and the normalisation's ε (the float nearest 1e-5). -/
abbrev zero32 : EReal := Ideal.ofBits .f32 0x00000000#32
abbrev one32 : EReal := Ideal.ofBits .f32 0x3F800000#32
abbrev n32 : EReal := Ideal.ofBits .f32 0x47435000#32
abbrev eps32 : EReal := Ideal.ofBits .f32 0x3727C5AC#32

section layer
variable (agg : Mat 50000 128 → Mat 50000 128) (C : Vct 50000)

/-- The neighbour mean as a quotient by the clipped degree. -/
def meanQ (X : Mat 50000 128) : Tab 50000 128 := fun n k => Ideal.div (agg X (ix2 n k)) (C (ix1 n))
/-- The neighbour mean as a product with the clipped degree's reciprocal. -/
def meanP (X : Mat 50000 128) : Tab 50000 128 := fun n k => agg X (ix2 n k) * Ideal.div one32 (C (ix1 n))

/-- One layer's dense combine: the mean against the neighbour weight, the node's own row against the root weight, the bias. -/
def dense {H : Nat} (M X : Tab 50000 128) (WL WR : Mat 128 H) (b : Vct H) : Tab 50000 H :=
  fun n q => (∑ k : Fin 128, M n k * WL (ix2 k q)) + (∑ k : Fin 128, X n k * WR (ix2 k q)) + b (ix1 q)
end layer

section norm
variable (h : Tab 50000 128)

/-- Column sums over the nodes, of the entries and of their squares. -/
def colSum (j : Fin 128) : EReal := ∑ n : Fin 50000, h n j
def colSumSq (j : Fin 128) : EReal := ∑ n : Fin 50000, h n j * h n j
/-- The batch mean of a column. -/
def mu (j : Fin 128) : EReal := Ideal.div (colSum h j) n32
/-- The variance as mean of squares minus squared mean. -/
def varK (j : Fin 128) : EReal := Ideal.div (colSumSq h j) n32 - mu h j * mu h j
/-- The variance as the mean of the squared deviations. -/
def varR (j : Fin 128) : EReal := Ideal.div (∑ n : Fin 50000, (h n j - mu h j) * (h n j - mu h j)) n32
/-- The normalisation folded into one scale per column. -/
def scaleK (γ : Vct 128) (j : Fin 128) : EReal := γ (ix1 j) * Ideal.rsqrt (varK h j + eps32)
/-- ... and one shift per column. -/
def shiftK (γ β : Vct 128) (j : Fin 128) : EReal := β (ix1 j) - mu h j * scaleK h γ j
/-- Normalise-and-cut as scale and shift. -/
def actK (γ β : Vct 128) : Tab 50000 128 := fun n j => max (h n j * scaleK h γ j + shiftK h γ β j) zero32
/-- Normalise-and-cut as written: centre, scale by γ and the inverse deviation, add β. -/
def actR (γ β : Vct 128) : Tab 50000 128 := fun n j =>
  max (γ (ix1 j) * (h n j - mu h j) * Ideal.rsqrt (varR h j + eps32) + β (ix1 j)) zero32
end norm

section whole
variable (agg : Mat 50000 128 → Mat 50000 128) (C : Vct 50000)
variable (x : Mat 50000 128) (Wl1 Wr1 : Mat 128 128) (b1 γ β : Vct 128) (Wl2 Wr2 : Mat 128 64) (b2 : Vct 64)

/-- The hidden array before normalisation, in the product spelling and in the quotient spelling. -/
def hidK : Tab 50000 128 := dense (meanP agg C x) (tab x) Wl1 Wr1 b1
def hidR : Tab 50000 128 := dense (meanQ agg C x) (tab x) Wl1 Wr1 b1
/-- The whole network, product / scale-and-shift spelling. -/
def outK : Tab 50000 64 :=
  dense (meanP agg C (mat (actK (hidK agg C x Wl1 Wr1 b1) γ β))) (actK (hidK agg C x Wl1 Wr1 b1) γ β) Wl2 Wr2 b2
/-- The whole network, quotient / centred spelling. -/
def outR : Tab 50000 64 :=
  dense (meanQ agg C (mat (actR (hidR agg C x Wl1 Wr1 b1) γ β))) (actR (hidR agg C x Wl1 Wr1 b1) γ β) Wl2 Wr2 b2
end whole

end Cert.SageSpec

end
-- ==== Proof.KHost0.lean ====
/-
  The idealized kernel's first host stretch: what the first region finds in its five input arrays.

  From the edge list's two rows (source, destination) the stretch computes the clipped in-degree C = max (scatter-add of
  ones at the destination, 1) and its reciprocal 1 / C, gathers the source rows of the node features (a negative source
  index first wrapped by the node count), scatter-adds them at the destination into zeros — the neighbour sum — and
  multiplies each row of it by the node's reciprocal degree: the neighbour mean. The features and the two weights are
  read as launched, the bias as a one-row array.
-/
import proofs.«165321_j893353197863_1_alg».proof.Proof.Gen.KernelIdeal.Frame
import Idealize.ShloMosaic.Lib.StableHlo.Run
import Idealize.ShloMosaic.Lib.Pipeline.Value
import Idealize.ShloMosaic.PureOps.Ideal

noncomputable section

open Idealize.ShloMosaic Idealize.ShloMosaic.TcCoe Idealize.SL.Sem Idealize.ShloMosaic.StableHlo

namespace Cert.KernelIdeal.KHost

open Cert.KernelIdeal Cert.KernelIdeal.Gen

/-- The edge list's source row and destination row. -/
def srcK (ei : (⟨S2x800000, .i32⟩ : BufTy).Contents (Elt Ideal)) : IVec S800000 32 :=
  shapeCast S800000 (extractStridedSlice S1x800000 ![0, 0] ei slices_S2x800000_S1x800000_0_0) shapeCasts_S1x800000_S800000
def dstK (ei : (⟨S2x800000, .i32⟩ : BufTy).Contents (Elt Ideal)) : IVec S800000 32 :=
  shapeCast S800000 (extractStridedSlice S1x800000 ![1, 0] ei slices_S2x800000_S1x800000_1_0) shapeCasts_S1x800000_S800000

/-- The neighbour sum of a node array over given source and destination rows. -/
def aggSD (s d : IVec S800000 32) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The clipped in-degree over a destination row. -/
def cntD (d : IVec S800000 32) : FVec Ideal S50000 .f32 :=
  maximumf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))
    (broadcastInDim S50000 ![] bcast_S_S50000 (constant (F := Ideal) S_ .f32 0x3F800000#32))

/-- Its reciprocal. -/
def invD (d : IVec S800000 32) : FVec Ideal S50000 .f32 :=
  Host.divf (F := Ideal) (broadcastInDim S50000 ![] bcast_S_S50000 (constant (F := Ideal) S_ .f32 0x3F800000#32)) (cntD d)

/-- A row-wise product of a node array with a per-node factor. -/
def rowScale (A : FVec Ideal S50000x128 .f32) (r : FVec Ideal S50000 .f32) : FVec Ideal S50000x128 .f32 :=
  mulf A (broadcastInDim S50000x128 ![0, 1] bcast_S50000x1_S50000x128_0_1 (broadcastInDim S50000x1 ![0] bcast_S50000_S50000x1_0 r))

/-- The neighbour sum, the clipped degree and the neighbour mean of the edge list. -/
def aggK (ei : (⟨S2x800000, .i32⟩ : BufTy).Contents (Elt Ideal)) (X : FVec Ideal S50000x128 .f32) : FVec Ideal S50000x128 .f32 :=
  aggSD (srcK ei) (dstK ei) X
def CK (ei : (⟨S2x800000, .i32⟩ : BufTy).Contents (Elt Ideal)) : FVec Ideal S50000 .f32 := cntD (dstK ei)
def meanK (ei : (⟨S2x800000, .i32⟩ : BufTy).Contents (Elt Ideal)) (X : FVec Ideal S50000x128 .f32) : FVec Ideal S50000x128 .f32 :=
  rowScale (aggK ei X) (invD (dstK ei))

variable (m : (ℓ : Loc nD τ sig) → Buf (Elt Ideal) ℓ) (ρ : Dev nD → PrngReg) (c : Dev nD)

/-! ## What the first stretch leaves -/

set_option maxHeartbeats 2000000 in
/-- The first region's mean window: the neighbour mean of the launched features. -/
theorem entry_mean : (V1 (F := Ideal) m ρ c main_v24 : S50000x128.Idx → EReal)
    = meanK (m ((c : Thread nD τ).loc main_arg1)) (m ((c : Thread nD τ).loc main_arg0)) := by
  show StableHlo.after hostOps0 (W0 m ρ c) (Proc.devRef .tc main_v24) = _
  after_results_simp
  rfl

set_option maxHeartbeats 2000000 in
/-- The bias window: the bias as a one-row array. -/
theorem entry_bias : (V1 (F := Ideal) m ρ c main_v25 : S1x128.Idx → EReal)
    = shapeCast S1x128 (m ((c : Thread nD τ).loc main_arg4)) shapeCasts_S128_S1x128 := by
  show StableHlo.after hostOps0 (W0 m ρ c) (Proc.devRef .tc main_v25) = _
  after_results_simp
  rfl

set_option maxHeartbeats 2000000 in
/-- The source row, the destination row and the reciprocal degree, which the third stretch reads again. -/
theorem entry_src : (V1 (F := Ideal) m ρ c main_v1 : S800000.Idx → BitVec 32) = srcK (m ((c : Thread nD τ).loc main_arg1)) := by
  show StableHlo.after hostOps0 (W0 m ρ c) (Proc.devRef .tc main_v1) = _
  after_results_simp
  rfl
set_option maxHeartbeats 2000000 in
theorem entry_dst : (V1 (F := Ideal) m ρ c main_v3 : S800000.Idx → BitVec 32) = dstK (m ((c : Thread nD τ).loc main_arg1)) := by
  show StableHlo.after hostOps0 (W0 m ρ c) (Proc.devRef .tc main_v3) = _
  after_results_simp
  rfl
set_option maxHeartbeats 2000000 in
theorem entry_inv : (V1 (F := Ideal) m ρ c main_v11 : S50000.Idx → EReal) = invD (dstK (m ((c : Thread nD τ).loc main_arg1))) := by
  show StableHlo.after hostOps0 (W0 m ρ c) (Proc.devRef .tc main_v11) = _
  after_results_simp
  rfl

/-- A buffer the first stretch does not write is as launched. -/
theorem entry_arg (b : Ref sig .tc)
    (hb : ∀ op ∈ (hostOps0 : List (HloOp τ sig (Elt Ideal))), Proc.devRef .tc b ∉ op.writes) :
    V1 (F := Ideal) m ρ c b = m ((c : Thread nD τ).loc b) :=
  StableHlo.after_of_forall_not_mem (b := Proc.devRef .tc b) _ _ hb

end Cert.KernelIdeal.KHost

end
-- ==== Proof.KHost1.lean ====
/-
  The idealized kernel's second host stretch: the batch normalisation folded into one scale and one shift per column.

  The first region leaves, in two one-row arrays, the column sums s₁ = Σₙ h and s₂ = Σₙ h² of the hidden array over the
  50000 nodes. From them and the normalisation's weight γ and offset β the stretch computes, per column,
      μ = s₁ / 50000,   var = s₂ / 50000 − μ · μ,   scale = γ · rsqrt (var + ε),   shift = β − μ · scale,
  and hands the second region the scale and the shift as one-row arrays; the hidden array passes through untouched.
-/
import proofs.«165321_j893353197863_1_alg».proof.Proof.KHost0
import proofs.«165321_j893353197863_1_alg».proof.Proof.Spec
import Idealize.ShloMosaic.Lib.ValueLayout

noncomputable section

open Idealize.ShloMosaic Idealize.ShloMosaic.TcCoe Idealize.SL.Sem Idealize.ShloMosaic.StableHlo
open Idealize.ShloMosaic.ValueIdx

namespace Cert.KernelIdeal.KHost

open Cert.KernelIdeal Cert.KernelIdeal.Gen
/-- The batch mean of each column, from the one-row array of column sums. -/
def muVec (s1 : FVec Ideal S1x128 .f32) : FVec Ideal S128 .f32 :=
  Host.divf (F := Ideal) (shapeCast S128 s1 shapeCasts_S1x128_S128)
    (broadcastInDim S128 ![] bcast_S_S128 (constant (F := Ideal) S_ .f32 0x47435000#32))

/-- The scale of each column: the weight times the reciprocal root of the variance (mean of squares minus squared mean) plus ε. -/
def scaleVec (s1 s2 : FVec Ideal S1x128 .f32) (γ : FVec Ideal S128 .f32) : FVec Ideal S128 .f32 :=
  mulf γ (Host.rsqrt (F := Ideal)
    (addf (subf (Host.divf (F := Ideal) (shapeCast S128 s2 shapeCasts_S1x128_S128)
                  (broadcastInDim S128 ![] bcast_S_S128 (constant (F := Ideal) S_ .f32 0x47435000#32)))
                (mulf (muVec s1) (muVec s1)))
          (broadcastInDim S128 ![] bcast_S_S128 (constant (F := Ideal) S_ .f32 0x3727C5AC#32))))

/-- The shift of each column: the offset minus the mean times the scale. -/
def shiftVec (s1 s2 : FVec Ideal S1x128 .f32) (γ β : FVec Ideal S128 .f32) : FVec Ideal S128 .f32 :=
  subf β (mulf (muVec s1) (scaleVec s1 s2 γ))

/-! ## Entry by entry -/

theorem muVec_apply (s1 : FVec Ideal S1x128 .f32) (j : Fin 128) :
    muVec s1 (ix1 j) = Ideal.div (s1 (ix2 (0 : Fin 1) j)) Cert.SageSpec.n32 := by
  unfold muVec
  show Ideal.div (shapeCast S128 s1 shapeCasts_S1x128_S128 (ix1 j)) (Ideal.ofBits .f32 0x47435000#32) = _
  rw [shapeCast_1a_a_apply]

theorem scaleVec_apply (s1 s2 : FVec Ideal S1x128 .f32) (γ : FVec Ideal S128 .f32) (j : Fin 128) :
    scaleVec s1 s2 γ (ix1 j)
      = γ (ix1 j) * Ideal.rsqrt (Ideal.div (s2 (ix2 (0 : Fin 1) j)) Cert.SageSpec.n32
          - Ideal.div (s1 (ix2 (0 : Fin 1) j)) Cert.SageSpec.n32 * Ideal.div (s1 (ix2 (0 : Fin 1) j)) Cert.SageSpec.n32
          + Cert.SageSpec.eps32) := by
  unfold scaleVec
  show γ (ix1 j) * Ideal.rsqrt (Ideal.div (shapeCast S128 s2 shapeCasts_S1x128_S128 (ix1 j)) (Ideal.ofBits .f32 0x47435000#32)
      - muVec s1 (ix1 j) * muVec s1 (ix1 j) + Ideal.ofBits .f32 0x3727C5AC#32) = _
  rw [shapeCast_1a_a_apply, muVec_apply]

theorem shiftVec_apply (s1 s2 : FVec Ideal S1x128 .f32) (γ β : FVec Ideal S128 .f32) (j : Fin 128) :
    shiftVec s1 s2 γ β (ix1 j)
      = β (ix1 j) - Ideal.div (s1 (ix2 (0 : Fin 1) j)) Cert.SageSpec.n32 * scaleVec s1 s2 γ (ix1 j) := by
  unfold shiftVec
  show β (ix1 j) - muVec s1 (ix1 j) * scaleVec s1 s2 γ (ix1 j) = _
  rw [muVec_apply]

/-- A vector as a one-row array, read at an entry of the row. -/
theorem row_apply (v : FVec Ideal S128 .f32) (j : Fin 128) :
    (shapeCast S1x128 v shapeCasts_S128_S1x128 : S1x128.Idx → EReal) (ix2 (0 : Fin 1) j) = v (ix1 j) :=
  shapeCast_a_1a_apply v shapeCasts_S128_S1x128 0 j

variable (m : (ℓ : Loc nD τ sig) → Buf (Elt Ideal) ℓ) (ρ : Dev nD → PrngReg) (c : Dev nD)

/-! ## The weight and the offset are as launched when the stretch reads them -/

theorem exit0_gamma : W2 m ρ c (Proc.devRef .tc main_arg5) = m ((c : Thread nD τ).loc main_arg5) :=
  (W2_of_ne m ρ c main_arg5 (by decide)).trans (entry_arg m ρ c main_arg5 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem exit0_beta : W2 m ρ c (Proc.devRef .tc main_arg6) = m ((c : Thread nD τ).loc main_arg6) :=
  (W2_of_ne m ρ c main_arg6 (by decide)).trans (entry_arg m ρ c main_arg6 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## What the second stretch leaves -/

/-- The scale window: the scale of the two accumulator arrays as the first region left them and the launched weight. -/
theorem norm_scale : (V3 (F := Ideal) m ρ c main_v41 : S1x128.Idx → EReal)
    = shapeCast S1x128 (scaleVec (W2 m ρ c (Proc.devRef .tc main_v26_1)) (W2 m ρ c (Proc.devRef .tc main_v26_2))
        (m ((c : Thread nD τ).loc main_arg5))) shapeCasts_S128_S1x128 := by
  rw [← exit0_gamma m ρ c]
  show StableHlo.after hostOps1 (W2 m ρ c) (Proc.devRef .tc main_v41) = _
  after_results_simp
  rfl

/-- The shift window likewise, with the launched offset. -/
theorem norm_shift : (V3 (F := Ideal) m ρ c main_v42 : S1x128.Idx → EReal)
    = shapeCast S1x128 (shiftVec (W2 m ρ c (Proc.devRef .tc main_v26_1)) (W2 m ρ c (Proc.devRef .tc main_v26_2))
        (m ((c : Thread nD τ).loc main_arg5)) (m ((c : Thread nD τ).loc main_arg6))) shapeCasts_S128_S1x128 := by
  rw [← exit0_gamma m ρ c, ← exit0_beta m ρ c]
  show StableHlo.after hostOps1 (W2 m ρ c) (Proc.devRef .tc main_v42) = _
  after_results_simp
  rfl

/-- The hidden array passes through the stretch untouched. -/
theorem norm_hidden : V3 (F := Ideal) m ρ c main_v26_0 = W2 m ρ c (Proc.devRef .tc main_v26_0) :=
  StableHlo.after_of_forall_not_mem (b := Proc.devRef .tc main_v26_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KHost

end
-- ==== Proof.KHost2.lean ====
/-
  The idealized kernel's third host stretch, and the plain reads of all three: what the last region finds in its arrays.

  The third stretch recomputes the neighbour mean, now of the activations the second region wrote: it gathers their source
  rows, scatter-adds them at the destination and multiplies each row by the node's reciprocal degree — with the source row,
  the destination row and the reciprocal degree that the FIRST stretch computed, which no operation or region in between
  writes. It also hands the last layer's bias on as a one-row array. Every other array a region reads directly — the
  features, the four weight matrices — is as launched.
-/
import proofs.«165321_j893353197863_1_alg».proof.Proof.KHost0
import Idealize.ShloMosaic.Lib.ValueLayout
import Idealize.ShloMosaic.Lib.IdealHost

noncomputable section

open Idealize.ShloMosaic Idealize.ShloMosaic.TcCoe Idealize.SL.Sem Idealize.ShloMosaic.StableHlo
open Idealize.ShloMosaic.ValueIdx

namespace Cert.KernelIdeal.KHost

open Cert.KernelIdeal Cert.KernelIdeal.Gen
/-! ## The first stretch's pure terms, entry by entry -/

/-- The raw in-degree over a destination row: ones scatter-added at the destination. -/
def degD (d : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The clipped degree is the entrywise larger of the raw in-degree and one. -/
theorem cntD_eq (d : IVec S800000 32) :
    cntD d = maximumf (degD d) (broadcastInDim S50000 ![] bcast_S_S50000 (constant (F := Ideal) S_ .f32 0x3F800000#32)) := by
  unfold cntD degD
  exact rfl

/-- A constant spread over the nodes reads as that constant at every node (the word a variable: it is never evaluated). -/
theorem nodeConst_apply (w : BitVec 32) (n : Fin 50000) :
    broadcastInDim S50000 ![] bcast_S_S50000 (constant (F := Ideal) S_ .f32 w) (ix1 n) = Ideal.ofBits .f32 w := rfl

theorem cntD_apply (d : IVec S800000 32) (n : Fin 50000) :
    cntD d (ix1 n) = max (degD d (ix1 n)) (Ideal.ofBits .f32 0x3F800000#32) := by
  rw [cntD_eq, maximumf_apply, nodeConst_apply]

/-- The reciprocal degree is one over the clipped degree. -/
theorem invD_apply (d : IVec S800000 32) (n : Fin 50000) :
    invD d (ix1 n) = Ideal.div (Ideal.ofBits .f32 0x3F800000#32) (cntD d (ix1 n)) := by
  unfold invD
  rw [hostDivf_apply, nodeConst_apply]

/-- A per-node factor spread over the node's row. -/
theorem rowFactor_apply (r : FVec Ideal S50000 .f32) (n : Fin 50000) (k : Fin 128) :
    broadcastInDim S50000x128 ![0, 1] bcast_S50000x1_S50000x128_0_1 (broadcastInDim S50000x1 ![0] bcast_S50000_S50000x1_0 r) (ix2 n k)
      = r (ix1 n) := by
  refine (broadcastInDim_apply _ _ _ (ix2 n k) (ix2 n (0 : Fin 1)) fun a => ?_).trans
    (broadcastInDim_apply _ _ r (ix2 n (0 : Fin 1)) (ix1 n) fun a => ?_)
  · match a with
    | ⟨0, _⟩ => show n.val = if (50000 : Nat) = 1 then 0 else n.val; exact (if_neg (by decide)).symm
    | ⟨1, _⟩ => show (0 : Nat) = if (1 : Nat) = 1 then 0 else k.val; exact (if_pos rfl).symm
  · match a with
    | ⟨0, _⟩ => show n.val = if (50000 : Nat) = 1 then 0 else n.val; exact (if_neg (by decide)).symm

/-- The row-wise product at an entry. -/
theorem rowScale_apply (A : FVec Ideal S50000x128 .f32) (r : FVec Ideal S50000 .f32) (n : Fin 50000) (k : Fin 128) :
    rowScale A r (ix2 n k) = A (ix2 n k) * r (ix1 n) := by
  unfold rowScale
  rw [mulf_apply, rowFactor_apply]

variable (m : (ℓ : Loc nD τ sig) → Buf (Elt Ideal) ℓ) (ρ : Dev nD → PrngReg) (c : Dev nD)

/-- No operation of a host stretch writes the buffer: each operation writes one buffer, another one. -/
local macro "untouched_by " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The first region's directly read arrays are as launched -/

theorem entry_features : V1 (F := Ideal) m ρ c main_arg0 = m ((c : Thread nD τ).loc main_arg0) :=
  entry_arg m ρ c main_arg0 (by untouched_by hostOps0)
theorem entry_wl : V1 (F := Ideal) m ρ c main_arg2 = m ((c : Thread nD τ).loc main_arg2) :=
  entry_arg m ρ c main_arg2 (by untouched_by hostOps0)
theorem entry_wr : V1 (F := Ideal) m ρ c main_arg3 = m ((c : Thread nD τ).loc main_arg3) :=
  entry_arg m ρ c main_arg3 (by untouched_by hostOps0)

/-! ## What the second region's exit still holds of the first stretch -/

/-- The source row, as the first stretch computed it. -/
theorem exit1_src : W4 m ρ c (Proc.devRef .tc main_v1) = srcK (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (by untouched_by hostOps1)
    _ = W1 m ρ c (Proc.devRef .tc main_v1) := W2_of_ne m ρ c main_v1 (by decide)
    _ = srcK (m ((c : Thread nD τ).loc main_arg1)) := entry_src m ρ c

/-- The destination row. -/
theorem exit1_dst : W4 m ρ c (Proc.devRef .tc main_v3) = dstK (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (by untouched_by hostOps1)
    _ = W1 m ρ c (Proc.devRef .tc main_v3) := W2_of_ne m ρ c main_v3 (by decide)
    _ = dstK (m ((c : Thread nD τ).loc main_arg1)) := entry_dst m ρ c

/-- The reciprocal degree. -/
theorem exit1_inv : W4 m ρ c (Proc.devRef .tc main_v11) = invD (dstK (m ((c : Thread nD τ).loc main_arg1))) :=
  calc W4 m ρ c (Proc.devRef .tc main_v11)
    _ = W3 m ρ c (Proc.devRef .tc main_v11) := W4_of_ne m ρ c main_v11 (by decide)
    _ = W2 m ρ c (Proc.devRef .tc main_v11) := StableHlo.after_of_forall_not_mem (b := Proc.devRef .tc main_v11) _ _ (by untouched_by hostOps1)
    _ = W1 m ρ c (Proc.devRef .tc main_v11) := W2_of_ne m ρ c main_v11 (by decide)
    _ = invD (dstK (m ((c : Thread nD τ).loc main_arg1))) := entry_inv m ρ c

/-- A buffer that neither the first two regions nor the first two stretches write is as launched at the second region's exit. -/
theorem exit1_launched (b : Ref sig .tc) (h1 : ∀ w, Pipeline.arrRef spec1 w ≠ b) (h0 : ∀ w, Pipeline.arrRef spec0 w ≠ b)
    (hs1 : ∀ op ∈ (hostOps1 : List (HloOp τ sig (Elt Ideal))), Proc.devRef .tc b ∉ op.writes)
    (hs0 : ∀ op ∈ (hostOps0 : List (HloOp τ sig (Elt Ideal))), Proc.devRef .tc b ∉ op.writes) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_forall_not_mem (b := Proc.devRef .tc b) _ _ hs1
    _ = W1 m ρ c (Proc.devRef .tc b) := W2_of_ne m ρ c b h0
    _ = m ((c : Thread nD τ).loc b) := entry_arg m ρ c b hs0

/-! ## What the third stretch leaves -/

set_option maxHeartbeats 400000 in
/-- The mean window as the stretch computes it, over what the second region's exit holds. -/
theorem exit_mean_raw : (V5 (F := Ideal) m ρ c main_v56 : S50000x128.Idx → EReal)
    = rowScale (aggSD (W4 m ρ c (Proc.devRef .tc main_v1)) (W4 m ρ c (Proc.devRef .tc main_v3)) (W4 m ρ c (Proc.devRef .tc main_v43)))
        (W4 m ρ c (Proc.devRef .tc main_v11)) := by
  show StableHlo.after hostOps2 (W4 m ρ c) (Proc.devRef .tc main_v56) = _
  after_results_simp
  rfl

/-- THE LAST REGION'S MEAN WINDOW: the neighbour mean, over the launched edge list, of the activations. -/
theorem exit_mean : (V5 (F := Ideal) m ρ c main_v56 : S50000x128.Idx → EReal)
    = meanK (m ((c : Thread nD τ).loc main_arg1)) (W4 m ρ c (Proc.devRef .tc main_v43)) := by
  rw [exit_mean_raw, exit1_src, exit1_dst, exit1_inv]
  rfl

/-- The activations pass through the stretch untouched. -/
theorem exit_hidden : V5 (F := Ideal) m ρ c main_v43 = W4 m ρ c (Proc.devRef .tc main_v43) :=
  StableHlo.after_of_forall_not_mem (b := Proc.devRef .tc main_v43) _ _ (by untouched_by hostOps2)

set_option maxHeartbeats 400000 in
/-- The bias window: the launched bias as a one-row array. -/
theorem exit_bias : (V5 (F := Ideal) m ρ c main_v57 : S1x64.Idx → EReal)
    = shapeCast S1x64 (m ((c : Thread nD τ).loc main_arg9)) shapeCasts_S64_S1x64 := by
  rw [← exit1_launched m ρ c main_arg9 (by decide) (by decide) (by untouched_by hostOps1) (by untouched_by hostOps0)]
  show StableHlo.after hostOps2 (W4 m ρ c) (Proc.devRef .tc main_v57) = _
  after_results_simp
  rfl

/-- The last layer's two weights are as launched. -/
theorem exit_wl : V5 (F := Ideal) m ρ c main_arg7 = m ((c : Thread nD τ).loc main_arg7) :=
  (StableHlo.after_of_forall_not_mem (b := Proc.devRef .tc main_arg7) _ _ (by untouched_by hostOps2)).trans
    (exit1_launched m ρ c main_arg7 (by decide) (by decide) (by untouched_by hostOps1) (by untouched_by hostOps0))
theorem exit_wr : V5 (F := Ideal) m ρ c main_arg8 = m ((c : Thread nD τ).loc main_arg8) :=
  (StableHlo.after_of_forall_not_mem (b := Proc.devRef .tc main_arg8) _ _ (by untouched_by hostOps2)).trans
    (exit1_launched m ρ c main_arg8 (by decide) (by decide) (by untouched_by hostOps1) (by untouched_by hostOps0))

end Cert.KernelIdeal.KHost

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibTwoProducts.lean ====
/-
  Two matrix products and a bias row, read at one entry.

  A dense layer of the form  x₁ · w₁ + x₂ · w₂ + b  is spelt by a kernel as two matrix-unit products, each of operands
  rounded to a narrower float format and each accumulated into a zero array, added to one another and to the bias row
  broadcast over all rows. Over the extended reals a change of float format is the identity and the products are exact, so
  the entry (p, q) of the result is
      (∑ k, x₁[p, k] · w₁[k, q]) + (∑ k, x₂[p, k] · w₂[k, q]) + b[0, q].
  The statement is generic in the three extents (rows n, contracted extent K, columns H), in the record D that spells the
  plain product's dimension numbers, and in the proofs of the side conditions the operations carry. The bias row goes
  through a cast to its own shape before it is broadcast. The forms in which one or both left operands also go through a
  cast to their own shape follow, since such a cast is the identity.
-/
import Idealize.ShloMosaic.Lib.ValueLayout
import proofs.«165321_j893353197863_1_alg».proof.Proof.LibDotCols

noncomputable section

open scoped BigOperators

namespace TwoProducts

open Idealize.ShloMosaic Idealize.ShloMosaic.ValueIdx

variable {n K H : Nat}

/-- A bias row cast to its own shape and broadcast over the rows reads, at (p, q), the row's entry q. -/
theorem bias_row_apply {α : Type} (brow : (⟨2, ![1, H]⟩ : Shape).Idx → α)
    (hc : (⟨2, ![1, H]⟩ : Shape).ShapeCasts ⟨2, ![1, H]⟩) (hb : (⟨2, ![1, H]⟩ : Shape).Broadcasts ⟨2, ![n, H]⟩)
    (p : Fin n) (q : Fin H) :
    broadcastTo ⟨2, ![n, H]⟩ (shapeCast ⟨2, ![1, H]⟩ brow hc) hb (ix2 p q) = brow (ix2 (0 : Fin 1) q) := by
  rw [broadcastTo_1b_ab_apply, shapeCast_self]

/-- One product of operands rounded to a narrower format, into the zero array, at an entry: the exact sum of products. -/
theorem rounded_product_apply {ψ : FTy} (D : DotDims ⟨2, ![n, K]⟩ ⟨2, ![K, H]⟩ ⟨2, ![n, H]⟩) (hD : D = DotDims.plain n K H)
    (prec : Option ContractPrecision) (hψ : ψ.bits < FTy.f32.bits)
    (x : FVec Ideal ⟨2, ![n, K]⟩ .f32) (w : FVec Ideal ⟨2, ![K, H]⟩ .f32) (p : Fin n) (q : Fin H) :
    matmul D prec (truncf ψ x hψ) (truncf ψ w hψ) (constant ⟨2, ![n, H]⟩ .f32 0x00000000#32) (ix2 p q)
      = ∑ k : Fin K, x (ix2 p k) * w (ix2 k q) :=
  (Cert.Lib.DotCols.matmul_cols_apply D hD prec (truncf ψ x hψ) (truncf ψ w hψ) p q).trans
    (Finset.sum_congr rfl fun _ _ => rfl)

/-- TWO PRODUCTS AND A BIAS ROW AT AN ENTRY (left operands as they are). -/
theorem two_products_apply {ψ : FTy} (D : DotDims ⟨2, ![n, K]⟩ ⟨2, ![K, H]⟩ ⟨2, ![n, H]⟩) (hD : D = DotDims.plain n K H)
    (prec : Option ContractPrecision) (hψ : ψ.bits < FTy.f32.bits)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ x1 hψ) (truncf ψ w1 hψ) (constant ⟨2, ![n, H]⟩ .f32 0x00000000#32))
               (matmul D prec (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [addf_apply, addf_apply, rounded_product_apply D hD, rounded_product_apply D hD, bias_row_apply]

/-- The same with the FIRST left operand cast to its own shape. -/
theorem two_products_cast_first_apply {ψ : FTy} (D : DotDims ⟨2, ![n, K]⟩ ⟨2, ![K, H]⟩ ⟨2, ![n, H]⟩)
    (hD : D = DotDims.plain n K H) (prec : Option ContractPrecision) (hψ : ψ.bits < FTy.f32.bits)
    (hx : (⟨2, ![n, K]⟩ : Shape).ShapeCasts ⟨2, ![n, K]⟩)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ (shapeCast ⟨2, ![n, K]⟩ x1 hx) hψ) (truncf ψ w1 hψ) (constant ⟨2, ![n, H]⟩ .f32 0x00000000#32))
               (matmul D prec (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [shapeCast_self x1 hx]
  exact two_products_apply D hD prec hψ hc hb x1 x2 w1 w2 brow p q

/-- The same with BOTH left operands cast to their own shape. -/
theorem two_products_cast_both_apply {ψ : FTy} (D : DotDims ⟨2, ![n, K]⟩ ⟨2, ![K, H]⟩ ⟨2, ![n, H]⟩)
    (hD : D = DotDims.plain n K H) (prec : Option ContractPrecision) (hψ : ψ.bits < FTy.f32.bits)
    (hx : (⟨2, ![n, K]⟩ : Shape).ShapeCasts ⟨2, ![n, K]⟩)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ (shapeCast ⟨2, ![n, K]⟩ x1 hx) hψ) (truncf ψ w1 hψ) (constant ⟨2, ![n, H]⟩ .f32 0x00000000#32))
               (matmul D prec (truncf ψ (shapeCast ⟨2, ![n, K]⟩ x2 hx) hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [shapeCast_self x1 hx, shapeCast_self x2 hx]
  exact two_products_apply D hD prec hψ hc hb x1 x2 w1 w2 brow p q

end TwoProducts

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«165321_j893353197863_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«165321_j893353197863_1_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.KRegion0a.lean ====
/-
  The first region (dense combine of layer one with the column statistics), point by point.

  At every grid point the body stores ONE hidden block: the two matrix products of the point's mean block and feature block
  with the two weight matrices, plus the bias row. The two [1,128] outputs are accumulators whose block index never moves:
  the first point stores zeros and then adds, every later point adds to what the point before left, the column sums of the
  point's hidden block (into the first) and of its entrywise square (into the second). Here: what each case's stores leave,
  each stored value read at an entry over the extended reals, and the outputs after point n as a recursion on n.
-/
import proofs.«165321_j893353197863_1_alg».proof.Proof.Gen.KernelIdeal.Frame
import proofs.«165321_j893353197863_1_alg».proof.Proof.LibTwoProducts
import proofs.«165321_j893353197863_1_alg».proof.Proof.LibLaneCols
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

theorem hz : (![0, 0] : Fin 2 → Nat) = fun _ => 0 := funext fun a => by fin_cases a <;> rfl

/-! ## What each case's stores leave -/

section pieces
variable {F : FTy → Type} [FloatOps F]
variable (c : Dev nD) (i : grid0.Coords)
  (a1 : Memref sig .tc .vmem S1000x128 .f32) (h1 : a1.IsWhole) (a2 : Memref sig .tc .vmem S1000x128 .f32) (h2 : a2.IsWhole)
  (a3 : Memref sig .tc .vmem S128x128 .f32) (h3 : a3.IsWhole) (a4 : Memref sig .tc .vmem S128x128 .f32) (h4 : a4.IsWhole)
  (a5 : Memref sig .tc .vmem S1x128 .f32) (h5 : a5.IsWhole) (a6 : Memref sig .tc .vmem S1000x128 .f32) (h6 : a6.IsWhole)
  (a7 : Memref sig .tc .vmem S1x128 .f32) (h7 : a7.IsWhole) (a8 : Memref sig .tc .vmem S1x128 .f32) (h8 : a8.IsWhole)
  (x0 x1 : Vec F S1000x128 .f32) (x2 x3 : Vec F S128x128 .f32) (x4 : Vec F S1x128 .f32)

/-- A later point leaves the hidden block of its input blocks. -/
theorem later_hidden (hc : ¬cond0_0 i) (xo6 xo7 : Vec F S1x128 .f32) :
    out0_B_5 c i a1 h1 a2 h2 a3 h3 a4 h4 a5 h5 a6 h6 a7 h7 a8 h8 hc x0 x1 x2 x3 x4 xo6 xo7 = k0_pay3 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread,
    View.ld_unit_zero (S := S1000x128) hz, View.ld_unit_zero (S := S128x128) hz, View.ld_unit_zero (S := S1x128) hz]

/-- A later point leaves, in the sum accumulator holding `xo6`, `xo6` plus the block's column sums. -/
theorem later_sum (hc : ¬cond0_0 i) (xo6 xo7 : Vec F S1x128 .f32) :
    out0_B_6 c i a1 h1 a2 h2 a3 h3 a4 h4 a5 h5 a6 h6 a7 h7 a8 h8 hc x0 x1 x2 x3 x4 xo6 xo7 = k0_pay4 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread,
    View.ld_unit_zero (S := S1000x128) hz, View.ld_unit_zero (S := S128x128) hz, View.ld_unit_zero (S := S1x128) hz]

/-- ... and in the sum-of-squares accumulator holding `xo7`, `xo7` plus the column sums of the squares. -/
theorem later_sumsq (hc : ¬cond0_0 i) (xo6 xo7 : Vec F S1x128 .f32) :
    out0_B_7 c i a1 h1 a2 h2 a3 h3 a4 h4 a5 h5 a6 h6 a7 h7 a8 h8 hc x0 x1 x2 x3 x4 xo6 xo7 = k0_pay5 x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S1000x128) hz, View.ld_unit_zero (S := S128x128) hz, View.ld_unit_zero (S := S1x128) hz]

/-- The first point leaves the hidden block of its input blocks. -/
theorem first_hidden (hc : cond0_0 i) :
    out0_A_5 c i a1 h1 a2 h2 a3 h3 a4 h4 a5 h5 a6 h6 a7 h7 a8 h8 hc x0 x1 x2 x3 x4 = k0_pay3 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S1000x128) hz, View.ld_unit_zero (S := S128x128) hz, View.ld_unit_zero (S := S1x128) hz]

/-- The first point stores zeros in the sum accumulator, reads them back, and leaves zero plus the block's column sums. -/
theorem first_sum (hc : cond0_0 i) :
    out0_A_6 c i a1 h1 a2 h2 a3 h3 a4 h4 a5 h5 a6 h6 a7 h7 a8 h8 hc x0 x1 x2 x3 x4 = k0_pay4 x0 x1 x2 x3 x4 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S1000x128) hz, View.ld_unit_zero (S := S128x128) hz, View.ld_unit_zero (S := S1x128) hz]

/-- ... and the same in the sum-of-squares accumulator. -/
theorem first_sumsq (hc : cond0_0 i) :
    out0_A_7 c i a1 h1 a2 h2 a3 h3 a4 h4 a5 h5 a6 h6 a7 h7 a8 h8 hc x0 x1 x2 x3 x4 = k0_pay5 x0 x1 x2 x3 x4 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S1000x128) hz, View.ld_unit_zero (S := S128x128) hz, View.ld_unit_zero (S := S1x128) hz]

end pieces

/-! ## The stored values at an entry, over the extended reals -/

section entries
variable (x0 x1 : FVec Ideal S1000x128 .f32) (x2 x3 : FVec Ideal S128x128 .f32) (x4 : FVec Ideal S1x128 .f32)

/-- The hidden block at (p, q): the mean row against the neighbour weight, the feature row against the root weight, the bias. -/
theorem hidden_apply (p : Fin 1000) (q : Fin 128) :
    k0_pay3 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k0_pay3
  exact TwoProducts.two_products_cast_first_apply dot_S1000x128_S128x128_S1000x128_1_0_0_1_n_n rfl none bitsLt_bf16_f32
    shapeCasts_S1000x128_S1000x128 shapeCasts_S1x128_S1x128 broadcasts_S1x128_S1000x128 x0 x1 x2 x3 x4 p q

/-- The sum accumulator's new entry: the old one plus the column sum of the hidden block. -/
theorem sum_apply (v : FVec Ideal S1x128 .f32) (q : Fin 128) :
    k0_pay4 (F := Ideal) x0 x1 x2 x3 x4 v (ix2 (0 : Fin 1) q)
      = v (ix2 (0 : Fin 1) q) + ∑ p : Fin 1000, k0_pay3 (F := Ideal) x0 x1 x2 x3 x4 (ix2 p q) := by
  unfold k0_pay4
  dsimp only
  refine (addf_apply _ _ _).trans ?_
  refine congrArg₂ (· + ·) ?_ ?_
  · rw [shapeCast_self]
  · refine (shapeCast_a_1a_apply _ _ 0 q).trans ?_
    exact LaneCols.multiReduction_add_cols _ _ _ _ _ q

/-- The sum-of-squares accumulator's new entry: the old one plus the column sum of the squared hidden block. -/
theorem sumsq_apply (v : FVec Ideal S1x128 .f32) (q : Fin 128) :
    k0_pay5 (F := Ideal) x0 x1 x2 x3 x4 v (ix2 (0 : Fin 1) q)
      = v (ix2 (0 : Fin 1) q) + ∑ p : Fin 1000, k0_pay3 (F := Ideal) x0 x1 x2 x3 x4 (ix2 p q) * k0_pay3 (F := Ideal) x0 x1 x2 x3 x4 (ix2 p q) := by
  unfold k0_pay5
  dsimp only
  refine (addf_apply _ _ _).trans ?_
  refine congrArg₂ (· + ·) ?_ ?_
  · rw [shapeCast_self]
  · refine (shapeCast_a_1a_apply _ _ 0 q).trans ?_
    exact (LaneCols.multiReduction_add_cols _ _ _ _ _ q).trans (Finset.sum_congr rfl fun _ _ => rfl)

/-- The zero blocks the first point stores. -/
theorem zero_sum_apply (j : S1x128.Idx) : k0_pay1 (F := Ideal) j = 0 := by
  unfold k0_pay1; exact Ideal.ofBits_zero_f32
theorem zero_sumsq_apply (j : S1x128.Idx) : k0_pay2 (F := Ideal) j = 0 := by
  unfold k0_pay2; exact Ideal.ofBits_zero_f32

end entries

end Cert.KernelIdeal.Region0

end
-- ==== Proof.KRegion0h.lean ====
/-
  The first dense combine's hidden array as a whole-array function.

  The first region visits 50 grid points. At point t it reads rows 1000·t … 1000·t + 999 of the neighbour-mean array and of
  the feature array (all 128 columns), the two 128 × 128 weight arrays and the one-row bias whole, and — whichever of its two
  cases the point falls in — stores in its hidden output the same rows: entry (n, q) is
      (∑ k, mean[n, k] · Wl[k, q]) + (∑ k, x[n, k] · Wr[k, q]) + bias[0, q].
  Every point writes its hidden block back, and every row of the 50000 lies in exactly the block of point (row / 1000), so
  the hidden array after the region is that formula at every index, for ANY contents the region finds in its arrays when it
  is entered. The reads of the five input blocks are stated on their own: the column statistics use them too.
-/
import proofs.«165321_j893353197863_1_alg».proof.Proof.KRegion0a

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen
/-- The hidden array as one function of the five arrays the region reads. -/
def dense1 (M X : S50000x128.Idx → EReal) (Wl Wr : S128x128.Idx → EReal) (b : S1x128.Idx → EReal) : S50000x128.Idx → EReal :=
  fun i => (∑ k : Fin 128, M (ix2 (⟨(i 0).val, idx2_lt0 i⟩ : Fin 50000) k) * Wl (ix2 k (⟨(i 1).val, idx2_lt1 i⟩ : Fin 128)))
    + (∑ k : Fin 128, X (ix2 (⟨(i 0).val, idx2_lt0 i⟩ : Fin 50000) k) * Wr (ix2 k (⟨(i 1).val, idx2_lt1 i⟩ : Fin 128)))
    + b (ix2 (0 : Fin 1) (⟨(i 1).val, idx2_lt1 i⟩ : Fin 128))

theorem dense1_ix2 (M X : S50000x128.Idx → EReal) (Wl Wr : S128x128.Idx → EReal) (b : S1x128.Idx → EReal)
    (n : Fin 50000) (q : Fin 128) :
    dense1 M X Wl Wr b (ix2 n q) = (∑ k : Fin 128, M (ix2 n k) * Wl (ix2 k q)) + (∑ k : Fin 128, X (ix2 n k) * Wr (ix2 k q))
      + b (ix2 (0 : Fin 1) q) := rfl

/-- The stored hidden block at any index of the block, against the whole-array function at an array index in the same
    column whose row of the mean and of the feature array is the block's row. -/
theorem hidden_eq_dense1 (v0 v1 : S1000x128.Idx → EReal) (Wl Wr : S128x128.Idx → EReal) (b : S1x128.Idx → EReal)
    (M X : S50000x128.Idx → EReal) (y : S1000x128.Idx) (i : S50000x128.Idx)
    (h0 : ∀ (p : Fin 1000) (k : Fin 128), p.val = (y 0).val → v0 (ix2 p k) = M (ix2 (⟨(i 0).val, idx2_lt0 i⟩ : Fin 50000) k))
    (h1 : ∀ (p : Fin 1000) (k : Fin 128), p.val = (y 0).val → v1 (ix2 p k) = X (ix2 (⟨(i 0).val, idx2_lt0 i⟩ : Fin 50000) k))
    (hcol : (i 1).val = (y 1).val) :
    k0_pay3 (F := Ideal) v0 v1 Wl Wr b y = dense1 M X Wl Wr b i := by
  obtain ⟨p, q, rfl⟩ : ∃ (p : Fin 1000) (q : Fin 128), y = ix2 p q := ⟨y 0, y 1, eq_ix2 y⟩
  have e : (⟨(i 1).val, idx2_lt1 i⟩ : Fin 128) = q := Fin.ext hcol
  rw [hidden_apply]
  unfold dense1
  rw [e]
  refine congrArg₂ (· + ·) (congrArg₂ (· + ·) (Finset.sum_congr rfl fun k _ => ?_) (Finset.sum_congr rfl fun k _ => ?_)) rfl
  · rw [h0 p k rfl]
  · rw [h1 p k rfl]

variable (V : (c : Dev nD) → (b : Ref sig .tc) → Buf (Elt Ideal) ((c : Thread nD τ).loc b))

/-- WHAT EVERY POINT LEAVES IN THE HIDDEN OUTPUT, whichever case it falls in: the hidden block of its five input blocks. -/
theorem hidden_at (c : Dev nD) (t : Fin cfg0.N) :
    (outsAt0 V c t.val t.isLt).1
      = k0_pay3 (F := Ideal) (iblk0 V c 0 t) (iblk0 V c 1 t) (iblk0 V c 2 t) (iblk0 V c 3 t) (iblk0 V c 4 t) := by
  by_cases h0 : t.val % 50 = 0
  · rw [outsAt0_A V c t h0]
    dsimp only
    exact first_hidden c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (iblk0 V c 0 t) (iblk0 V c 1 t) (iblk0 V c 2 t) (iblk0 V c 3 t) (iblk0 V c 4 t) ((hcond0_0 t).mpr h0)
  · rw [outsAt0_B V c t h0]
    dsimp only
    exact later_hidden c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (iblk0 V c 0 t) (iblk0 V c 1 t) (iblk0 V c 2 t) (iblk0 V c 3 t) (iblk0 V c 4 t) (fun h => h0 ((hcond0_0 t).mp h))
      (outsAt0 V c (t.val - 1) (Nat.lt_of_le_of_lt (Nat.sub_le _ _) t.isLt)).2.1
      (outsAt0 V c (t.val - 1) (Nat.lt_of_le_of_lt (Nat.sub_le _ _) t.isLt)).2.2

/-- The printed index maps over the 50 points: the row-block windows sit at block (t, 0), every other window at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An entry of the mean's block at point t is the array's entry in row 1000·t + (the block's row). -/
theorem mean_block (c : Dev nD) (t : Fin cfg0.N) (p : Fin 1000) (k : Fin 128) (n : Fin 50000)
    (hn : n.val = t.val * 1000 + p.val) :
    (iblk0 V c 0 t : S1000x128.Idx → EReal) (ix2 p k) = (V c main_v24 : S50000x128.Idx → EReal) (ix2 n k) := by
  obtain ⟨e0, e1, -⟩ := idx_facts t
  unfold iblk0
  rw [View.read_apply]
  show V c main_v24 (((cfg0.win 0).blk t).view.emb (ix2 p k)) = V c main_v24 (ix2 n k)
  refine congrArg _ (funext fun a => Fin.ext ?_)
  match a with
  | ⟨0, _⟩ => show win0_0.index t (0 : Fin 2) * 1000 + 1 * p.val = n.val; omega
  | ⟨1, _⟩ => show win0_0.index t (1 : Fin 2) * 128 + 1 * k.val = k.val; omega

/-- … and likewise for the feature array's block. -/
theorem feature_block (c : Dev nD) (t : Fin cfg0.N) (p : Fin 1000) (k : Fin 128) (n : Fin 50000)
    (hn : n.val = t.val * 1000 + p.val) :
    (iblk0 V c 1 t : S1000x128.Idx → EReal) (ix2 p k) = (V c main_arg0 : S50000x128.Idx → EReal) (ix2 n k) := by
  obtain ⟨-, -, e0, e1, -⟩ := idx_facts t
  unfold iblk0
  rw [View.read_apply]
  show V c main_arg0 (((cfg0.win 1).blk t).view.emb (ix2 p k)) = V c main_arg0 (ix2 n k)
  refine congrArg _ (funext fun a => Fin.ext ?_)
  match a with
  | ⟨0, _⟩ => show win0_1.index t (0 : Fin 2) * 1000 + 1 * p.val = n.val; omega
  | ⟨1, _⟩ => show win0_1.index t (1 : Fin 2) * 128 + 1 * k.val = k.val; omega

/-- The neighbour weight's block is the whole array at every point. -/
theorem wl_block (c : Dev nD) (t : Fin cfg0.N) : iblk0 V c 2 t = V c main_arg2 := by
  obtain ⟨-, -, -, -, e0, e1, -⟩ := idx_facts t
  funext y
  unfold iblk0
  rw [View.read_apply]
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The root weight's block is the whole array at every point. -/
theorem wr_block (c : Dev nD) (t : Fin cfg0.N) : iblk0 V c 3 t = V c main_arg3 := by
  obtain ⟨-, -, -, -, -, -, e0, e1, -⟩ := idx_facts t
  funext y
  unfold iblk0
  rw [View.read_apply]
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's block is the whole one-row array at every point. -/
theorem bias_block (c : Dev nD) (t : Fin cfg0.N) : iblk0 V c 4 t = V c main_v25 := by
  obtain ⟨-, -, -, -, -, -, -, -, e0, e1, -⟩ := idx_facts t
  funext y
  unfold iblk0
  rw [View.read_apply]
  show V c main_v25 (((cfg0.win 4).blk t).view.emb y) = V c main_v25 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT t WRITES BACK to the hidden array is block t of the whole-array function of the arrays as the region finds them. -/
theorem flushed_eq (c : Dev nD) (t : Fin cfg0.N) :
    (dat0 V c).flushed 5 t = ((cfg0.win 5).blk t).view.read (Elt Ideal)
      (dense1 (V c main_v24) (V c main_arg0) (V c main_arg2) (V c main_arg3) (V c main_v25)) := by
  show (cfg0.win 5).cut (grid0.coords t) ((dat0 V c).after 5 t) = _
  rw [after0_5, hidden_at, wl_block, wr_block, bias_block]
  funext y
  obtain ⟨-, -, -, -, -, -, -, -, -, -, e10, e11⟩ := idx_facts t
  show k0_pay3 (F := Ideal) (iblk0 V c 0 t) (iblk0 V c 1 t) (V c main_arg2) (V c main_arg3) (V c main_v25) y
    = dense1 (V c main_v24) (V c main_arg0) (V c main_arg2) (V c main_arg3) (V c main_v25) (((cfg0.win 5).blk t).view.emb y)
  have hrow : ((((cfg0.win 5).blk t).view.emb y : S50000x128.Idx) 0).val = t.val * 1000 + (y 0).val := by
    show win0_5.index t (0 : Fin 2) * 1000 + 1 * (y 0).val = _
    omega
  refine hidden_eq_dense1 _ _ _ _ _ _ _ y _ (fun p k hp => mean_block V c t p k _ ?_) (fun p k hp => feature_block V c t p k _ ?_) ?_
  · show ((((cfg0.win 5).blk t).view.emb y : S50000x128.Idx) 0).val = t.val * 1000 + p.val
    omega
  · show ((((cfg0.win 5).blk t).view.emb y : S50000x128.Idx) 0).val = t.val * 1000 + p.val
    omega
  · show win0_5.index t (1 : Fin 2) * 128 + 1 * (y 1).val = (y 1).val
    omega

/-- An index of the hidden array is in point t's block iff each coordinate is in the block's range on its axis. -/
theorem mem_blk (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v26_0).slice (win0_5.rect t)).set ↔ _
  rw [View.set_slice_whole, Rect.mem_set_unit]
  exact Iff.rfl

/-- Every index of the hidden array is in the block of the point (row / 1000). -/
theorem cover (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 50 := N_0
  let t : Fin cfg0.N := ⟨(i 0).val / 1000, by rw [hN]; omega⟩
  obtain ⟨-, -, -, -, -, -, -, -, -, -, e10, e11⟩ := idx_facts t
  have ht : t.val = (i 0).val / 1000 := rfl
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- THE HIDDEN ARRAY after the region is the whole-array function of the arrays the region found. -/
theorem hidden_final (c : Dev nD) :
    (dat0 V c).arrAt 5 cfg0.N = dense1 (V c main_v24) (V c main_arg0) (V c main_arg2) (V c main_arg3) (V c main_v25) :=
  (dat0 V c).arrAt_eq_of_cover 5 (dense1 (V c main_v24) (V c main_arg0) (V c main_arg2) (V c main_arg3) (V c main_v25))
    (fun t _ => flushed_eq V c t) cover

/-- … entry by entry, with the five arrays the region found named as functions to the extended reals. -/
theorem hidden_array (c : Dev nD) (M X : S50000x128.Idx → EReal) (Wl Wr : S128x128.Idx → EReal) (b : S1x128.Idx → EReal)
    (hM : V c main_v24 = M) (hX : V c main_arg0 = X) (hWl : V c main_arg2 = Wl) (hWr : V c main_arg3 = Wr)
    (hb : V c main_v25 = b) (n : Fin 50000) (q : Fin 128) :
    (Gen.dat0 (F := Ideal) V c).arrAt 5 cfg0.N (ix2 n q)
      = (∑ k : Fin 128, M (ix2 n k) * Wl (ix2 k q)) + (∑ k : Fin 128, X (ix2 n k) * Wr (ix2 k q)) + b (ix2 (0 : Fin 1) q) := by
  rw [hidden_final, hM, hX, hWl, hWr, hb]
  rfl

end Cert.KernelIdeal.Region0

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.KRegion0b.lean ====
/-
  The first region's two accumulators, as whole sums.

  After point n the sum accumulator holds zero plus the column sums of the hidden blocks 0, …, n (a recursion on the point: the
  first point adds to the zeros it has just stored, every later point to what the point before left), the other one the
  same for the squared entries. Neither is written back before the last point (49), whose write-back is the whole [1,128]
  array. The hidden block of point t holds rows 1000·t, …, 1000·t + 999 of the hidden array, so the sum over the 50 blocks of
  the 1000 rows of each is the sum over all 50000 rows: addition on the extended reals is commutative and associative, no
  finiteness is used.
-/
import proofs.«165321_j893353197863_1_alg».proof.Proof.KRegion0a
import proofs.«165321_j893353197863_1_alg».proof.Proof.KRegion0h
import proofs.«165321_j893353197863_1_alg».proof.Proof.LibGridAcc
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b)) (c : Dev nD)

/-- The sum accumulator after point n. -/
def sumAfter : (n : ℕ) → n < cfg0.N → FVec Ideal S1x128 .f32
  | 0, h => k0_pay4 (F := Ideal) (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal))
  | n + 1, h => k0_pay4 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (sumAfter n (Nat.lt_of_succ_lt h))

/-- The sum-of-squares accumulator after point n. -/
def sumsqAfter : (n : ℕ) → n < cfg0.N → FVec Ideal S1x128 .f32
  | 0, h => k0_pay5 (F := Ideal) (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal))
  | n + 1, h => k0_pay5 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (sumsqAfter n (Nat.lt_of_succ_lt h))

set_option maxHeartbeats 4000000 in
/-- What the two accumulators' staging buffers hold after point n are these recursions: by induction on the point. -/
theorem sums_at : ∀ (n : ℕ) (h : n < cfg0.N),
    (outsAt0 V c n h).2.1 = sumAfter V c n h ∧ (outsAt0 V c n h).2.2 = sumsqAfter V c n h
  | 0, h =>
    ⟨(congrArg (fun o => o.2.1) (outsAt0_A V c ⟨0, h⟩ rfl)).trans
        (first_sum c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (iblk0 V c 0 ⟨0, h⟩) (iblk0 V c 1 ⟨0, h⟩) (iblk0 V c 2 ⟨0, h⟩) (iblk0 V c 3 ⟨0, h⟩) (iblk0 V c 4 ⟨0, h⟩) ((hcond0_0 ⟨0, h⟩).mpr rfl)),
      (congrArg (fun o => o.2.2) (outsAt0_A V c ⟨0, h⟩ rfl)).trans
        (first_sumsq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (iblk0 V c 0 ⟨0, h⟩) (iblk0 V c 1 ⟨0, h⟩) (iblk0 V c 2 ⟨0, h⟩) (iblk0 V c 3 ⟨0, h⟩) (iblk0 V c 4 ⟨0, h⟩) ((hcond0_0 ⟨0, h⟩).mpr rfl))⟩
  | n + 1, h => by
    have hN : cfg0.N = 50 := N_0
    have hB : ¬(⟨n + 1, h⟩ : Fin cfg0.N).val % 50 = 0 := by dsimp only; omega
    obtain ⟨e1, e2⟩ := sums_at n (Nat.lt_of_succ_lt h)
    have hc : ¬cond0_0 (grid0.coords ⟨n + 1, h⟩) := fun hh => hB ((hcond0_0 ⟨n + 1, h⟩).mp hh)
    refine ⟨(congrArg (fun o => o.2.1) (outsAt0_B V c ⟨n + 1, h⟩ hB)).trans ?_, (congrArg (fun o => o.2.2) (outsAt0_B V c ⟨n + 1, h⟩ hB)).trans ?_⟩
    · refine (later_sum c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) hc (outsAt0 V c n (Nat.lt_of_succ_lt h)).2.1 (outsAt0 V c n (Nat.lt_of_succ_lt h)).2.2).trans ?_
      show k0_pay4 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n _).2.1 = k0_pay4 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (sumAfter V c n _)
      rw [e1]
    · refine (later_sumsq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) hc (outsAt0 V c n (Nat.lt_of_succ_lt h)).2.1 (outsAt0 V c n (Nat.lt_of_succ_lt h)).2.2).trans ?_
      show k0_pay5 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n _).2.2 = k0_pay5 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (sumsqAfter V c n _)
      rw [e2]

/-- The hidden block of point t, as stored. -/
abbrev hiddenBlock (t : Fin cfg0.N) : FVec Ideal S1000x128 .f32 := k0_pay3 (F := Ideal) (iblk0 V c 0 t) (iblk0 V c 1 t) (iblk0 V c 2 t) (iblk0 V c 3 t) (iblk0 V c 4 t)

/-- The sum accumulator after point n, at column q: the column sums of blocks 0, …, n, added up. -/
theorem sumAfter_apply : ∀ (n : ℕ) (h : n < cfg0.N) (q : Fin 128),
    sumAfter V c n h (ix2 (0 : Fin 1) q)
      = ∑ t : Fin (n + 1), ∑ p : Fin 1000, hiddenBlock V c ⟨t.val, lt_of_lt_of_le t.isLt (Nat.succ_le_of_lt h)⟩ (ix2 p q)
  | 0, h, q => by
    refine (sum_apply (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal)) q).trans ?_
    rw [zero_sum_apply, zero_add, Fin.sum_univ_one]
    rfl
  | n + 1, h, q => by
    refine (sum_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (sumAfter V c n (Nat.lt_of_succ_lt h)) q).trans ?_
    rw [sumAfter_apply n (Nat.lt_of_succ_lt h) q, Fin.sum_univ_castSucc (n := n + 1)]
    exact congrArg₂ (· + ·) (Finset.sum_congr rfl fun t _ => rfl) rfl

/-- The same for the squares. -/
theorem sumsqAfter_apply : ∀ (n : ℕ) (h : n < cfg0.N) (q : Fin 128),
    sumsqAfter V c n h (ix2 (0 : Fin 1) q)
      = ∑ t : Fin (n + 1), ∑ p : Fin 1000, hiddenBlock V c ⟨t.val, lt_of_lt_of_le t.isLt (Nat.succ_le_of_lt h)⟩ (ix2 p q)
          * hiddenBlock V c ⟨t.val, lt_of_lt_of_le t.isLt (Nat.succ_le_of_lt h)⟩ (ix2 p q)
  | 0, h, q => by
    refine (sumsq_apply (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) q).trans ?_
    rw [zero_sumsq_apply, zero_add, Fin.sum_univ_one]
    rfl
  | n + 1, h, q => by
    refine (sumsq_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (sumsqAfter V c n (Nat.lt_of_succ_lt h)) q).trans ?_
    rw [sumsqAfter_apply n (Nat.lt_of_succ_lt h) q, Fin.sum_univ_castSucc (n := n + 1)]
    exact congrArg₂ (· + ·) (Finset.sum_congr rfl fun t _ => rfl) rfl

/-- The last point. -/
theorem last_lt : 49 < cfg0.N := by rw [show cfg0.N = 50 from N_0]; decide
abbrev tLast : Fin cfg0.N := ⟨49, last_lt⟩

/-- The one write-back of the sum accumulator, at the last point, writes what the recursion holds there: its block is the array. -/
theorem sum_flushed (t : Fin cfg0.N) (hf : (cfg0.win 6).flush t = true) :
    (dat0 V c).flushed 6 t = ((cfg0.win 6).blk t).view.read (Elt Ideal) (sumAfter V c 49 last_lt) := by
  have hN : cfg0.N = 50 := N_0
  have h49 : t.val = 49 := by have := (flush0_6 t).mp hf; have := t.isLt; omega
  obtain rfl : t = tLast := Fin.ext h49
  show (cfg0.win 6).cut (grid0.coords tLast) ((dat0 V c).after 6 tLast) = _
  rw [after0_6, (sums_at V c 49 last_lt).1]
  have hz' : (fun a => win0_6.index tLast a * main_v26_1.ty.shape.size a) = fun _ => 0 := funext fun a => by fin_cases a <;> decide +kernel
  exact (Memref.read_access_unit_zero (Elt Ideal) main_v26_1 hz' (fun a => by rw [congrFun hz' a]; simp) (sumAfter V c 49 last_lt)).symm

theorem sumsq_flushed (t : Fin cfg0.N) (hf : (cfg0.win 7).flush t = true) :
    (dat0 V c).flushed 7 t = ((cfg0.win 7).blk t).view.read (Elt Ideal) (sumsqAfter V c 49 last_lt) := by
  have hN : cfg0.N = 50 := N_0
  have h49 : t.val = 49 := by have := (flush0_7 t).mp hf; have := t.isLt; omega
  obtain rfl : t = tLast := Fin.ext h49
  show (cfg0.win 7).cut (grid0.coords tLast) ((dat0 V c).after 7 tLast) = _
  rw [after0_7, (sums_at V c 49 last_lt).2]
  have hz' : (fun a => win0_7.index tLast a * main_v26_2.ty.shape.size a) = fun _ => 0 := funext fun a => by fin_cases a <;> decide +kernel
  exact (Memref.read_access_unit_zero (Elt Ideal) main_v26_2 hz' (fun a => by rw [congrFun hz' a]; simp) (sumsqAfter V c 49 last_lt)).symm

/-- So the sum array ends at the recursion's value after the last point. -/
theorem sum_final : (dat0 V c).arrAt 6 cfg0.N = sumAfter V c 49 last_lt :=
  (dat0 V c).arrAt_eq_of_cover 6 (sumAfter V c 49 last_lt) (sum_flushed V c) fun i =>
    ⟨tLast, (flush0_6 tLast).mpr rfl, by
      show i ∈ ((View.whole main_v26_1).slice (win0_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 128 from by decide +kernel]; omega⟩

theorem sumsq_final : (dat0 V c).arrAt 7 cfg0.N = sumsqAfter V c 49 last_lt :=
  (dat0 V c).arrAt_eq_of_cover 7 (sumsqAfter V c 49 last_lt) (sumsq_flushed V c) fun i =>
    ⟨tLast, (flush0_7 tLast).mpr rfl, by
      show i ∈ ((View.whole main_v26_2).slice (win0_7.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 128 from by decide +kernel]; omega⟩

end Cert.KernelIdeal.Region0

end
-- ==== Proof.KRegion0c.lean ====
/-
  The first region's two statistics arrays, entry by entry: column q of the sum array is the sum over ALL 50000 rows of the
  hidden array's column q, and the other array the same for the squares. The hidden block of point t is rows 1000·t … 1000·t + 999
  of the hidden array (its two row-blocked inputs are those rows of the mean and of the features, its other inputs whole
  arrays), and 50 blocks of 1000 rows are the 50000 rows.
-/
import proofs.«165321_j893353197863_1_alg».proof.Proof.KRegion0b

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b)) (c : Dev nD)

/-- The hidden array of the region's entry contents. -/
abbrev hiddenArr : S50000x128.Idx → EReal :=
  dense1 (V c main_v24) (V c main_arg0) (V c main_arg2) (V c main_arg3) (V c main_v25)

/-- Row p of the hidden block of point t is row n = 1000·t + p of the hidden array. -/
theorem hiddenBlock_eq (t : Fin cfg0.N) (p : Fin 1000) (q : Fin 128) (n : Fin 50000) (hn : n.val = t.val * 1000 + p.val) :
    hiddenBlock V c t (ix2 p q) = hiddenArr V c (ix2 n q) := by
  show k0_pay3 (F := Ideal) (iblk0 V c 0 t) (iblk0 V c 1 t) (iblk0 V c 2 t) (iblk0 V c 3 t) (iblk0 V c 4 t) (ix2 p q) = _
  rw [wl_block, wr_block, bias_block]
  exact hidden_eq_dense1 _ _ _ _ _ _ _ (ix2 p q) (ix2 n q)
    (fun p' k hp => by obtain rfl : p' = p := Fin.ext hp; exact mean_block V c t p' k n hn)
    (fun p' k hp => by obtain rfl : p' = p := Fin.ext hp; exact feature_block V c t p' k n hn) rfl

theorem row_lt (t : Fin (49 + 1)) (p : Fin 1000) : t.val * 1000 + p.val < 50000 := by
  have := t.isLt; have := p.isLt; omega

/-- The double sum over blocks and rows is the sum over all rows. -/
theorem sum_rows {M : Type*} [AddCommMonoid M] (g : Fin 50000 → M) :
    (∑ t : Fin (49 + 1), ∑ p : Fin 1000, g ⟨t.val * 1000 + p.val, row_lt t p⟩) = ∑ n : Fin 50000, g n :=
  (Cert.Lib.GridAcc.sum_blocks' (B := 50) (J := 1000) (fun x : Fin (50 * 1000) => g ⟨x.val, x.isLt⟩)).symm

set_option maxHeartbeats 1000000 in
/-- The sum array at column q: the hidden array's column q summed over all rows. -/
theorem sum_array (q : Fin 128) :
    ((dat0 V c).arrAt 6 cfg0.N (ix2 (0 : Fin 1) q) : EReal) = ∑ n : Fin 50000, hiddenArr V c (ix2 n q) := by
  refine (congrFun (sum_final V c) _).trans ?_
  refine (sumAfter_apply V c 49 last_lt q).trans ?_
  rw [← sum_rows fun n => hiddenArr V c (ix2 n q)]
  refine Finset.sum_congr rfl fun t _ => Finset.sum_congr rfl fun p _ => ?_
  exact hiddenBlock_eq V c _ p q _ rfl

set_option maxHeartbeats 1000000 in
/-- The sum-of-squares array at column q. -/
theorem sumsq_array (q : Fin 128) :
    ((dat0 V c).arrAt 7 cfg0.N (ix2 (0 : Fin 1) q) : EReal) = ∑ n : Fin 50000, hiddenArr V c (ix2 n q) * hiddenArr V c (ix2 n q) := by
  refine (congrFun (sumsq_final V c) _).trans ?_
  refine (sumsqAfter_apply V c 49 last_lt q).trans ?_
  rw [← sum_rows fun n => hiddenArr V c (ix2 n q) * hiddenArr V c (ix2 n q)]
  refine Finset.sum_congr rfl fun t _ => Finset.sum_congr rfl fun p _ => ?_
  exact congrArg₂ (· * ·) (hiddenBlock_eq V c _ p q _ rfl) (hiddenBlock_eq V c _ p q _ rfl)

end Cert.KernelIdeal.Region0

end
-- ==== Proof.KRegion1.lean ====
/-
  The normalise-and-cut region as a whole-array function.

  The region visits 25 grid points. At point t it reads rows 2000·t … 2000·t + 1999 of the hidden array (all 128 columns),
  the one-row scale and shift arrays whole, and writes the same rows of its result: each entry is
      max (h · scale[column] + shift[column], 0).
  Every row of the 50000 lies in exactly the block of point (row / 2000), so the result array after the region is that
  formula at every index, for ANY contents the region finds in its arrays when it is entered.
-/
import proofs.«165321_j893353197863_1_alg».proof.Proof.Gen.KernelIdeal.Frame
import proofs.«165321_j893353197863_1_alg».proof.Proof.LibTwoProducts
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-- The region's result as one function of the three arrays it reads: entry by entry, scale, shift, cut at zero. -/
def bnRelu (h : S50000x128.Idx → EReal) (s b : S1x128.Idx → EReal) : S50000x128.Idx → EReal := fun i =>
  max (h i * s (ix2 (0 : Fin 1) ⟨(i 1).val, idx2_lt1 i⟩) + b (ix2 (0 : Fin 1) ⟨(i 1).val, idx2_lt1 i⟩))
    (Ideal.ofBits .f32 0x00000000#32)

theorem bnRelu_ix2 (h : S50000x128.Idx → EReal) (s b : S1x128.Idx → EReal) (n : Fin 50000) (j : Fin 128) :
    bnRelu h s b (ix2 n j) = max (h (ix2 n j) * s (ix2 (0 : Fin 1) j) + b (ix2 (0 : Fin 1) j)) (Ideal.ofBits .f32 0x00000000#32) := rfl

/-- The body's stored value at an entry of the block. -/
theorem pay_apply (v0 : FVec Ideal S2000x128 .f32) (v2 v6 : FVec Ideal S1x128 .f32) (p : Fin 2000) (q : Fin 128) :
    k1_pay1 (F := Ideal) v0 v2 v6 (ix2 p q)
      = max (v0 (ix2 p q) * v2 (ix2 (0 : Fin 1) q) + v6 (ix2 (0 : Fin 1) q)) (Ideal.ofBits .f32 0x00000000#32) := by
  unfold k1_pay1
  rw [maximumf_apply, addf_apply, mulf_apply, shapeCast_self, TwoProducts.bias_row_apply, TwoProducts.bias_row_apply,
    broadcast_apply]
  rfl

/-- The same at any index of the block, against the whole-array function at an array index in the same column whose
    entry of the hidden array is the block's. -/
theorem pay_eq_bnRelu (v0 : S2000x128.Idx → EReal) (s b : S1x128.Idx → EReal) (h : S50000x128.Idx → EReal)
    (y : S2000x128.Idx) (i : S50000x128.Idx) (h0 : v0 y = h i) (h1 : (i 1).val = (y 1).val) :
    k1_pay1 (F := Ideal) v0 s b y = bnRelu h s b i := by
  obtain ⟨p, q, rfl⟩ : ∃ (p : Fin 2000) (q : Fin 128), y = ix2 p q := ⟨y 0, y 1, eq_ix2 y⟩
  have e : (⟨(i 1).val, idx2_lt1 i⟩ : Fin 128) = q := Fin.ext h1
  rw [pay_apply, h0]
  unfold bnRelu
  rw [e]

variable (V : (c : Dev nD) → (b : Ref sig .tc) → Buf (Elt Ideal) ((c : Thread nD τ).loc b))

/-- The printed index maps over the 25 points: the row-block windows sit at block (t, 0), the one-row windows at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The scale window's block is the whole one-row array at every point. -/
theorem scale_block (c : Dev nD) (t : Fin cfg1.N) : iblk1 V c 1 t = V c main_v41 := by
  obtain ⟨-, -, e0, e1, -⟩ := idx_facts t
  funext y
  unfold iblk1
  rw [View.read_apply]
  show V c main_v41 (((cfg1.win 1).blk t).view.emb y) = V c main_v41 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The shift window's block is the whole one-row array at every point. -/
theorem shift_block (c : Dev nD) (t : Fin cfg1.N) : iblk1 V c 2 t = V c main_v42 := by
  obtain ⟨-, -, -, -, e0, e1, -⟩ := idx_facts t
  funext y
  unfold iblk1
  rw [View.read_apply]
  show V c main_v42 (((cfg1.win 2).blk t).view.emb y) = V c main_v42 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- An entry of the hidden array's block at point t is the array's entry where the result's block puts it. -/
theorem hidden_block (c : Dev nD) (t : Fin cfg1.N) (y : S2000x128.Idx) :
    (iblk1 V c 0 t : S2000x128.Idx → EReal) y = (V c main_v26_0 : S50000x128.Idx → EReal) (((cfg1.win 3).blk t).view.emb y) := by
  obtain ⟨e0, e1, -, -, -, -, e6, e7⟩ := idx_facts t
  unfold iblk1
  rw [View.read_apply]
  show V c main_v26_0 (((cfg1.win 0).blk t).view.emb y) = V c main_v26_0 (((cfg1.win 3).blk t).view.emb y)
  refine congrArg _ (funext fun a => Fin.ext ?_)
  match a with
  | ⟨0, _⟩ => show win1_0.index t (0 : Fin 2) * 2000 + 1 * (y 0).val = win1_3.index t (0 : Fin 2) * 2000 + 1 * (y 0).val; omega
  | ⟨1, _⟩ => show win1_0.index t (1 : Fin 2) * 128 + 1 * (y 1).val = win1_3.index t (1 : Fin 2) * 128 + 1 * (y 1).val; omega

/-- WHAT POINT t WRITES BACK is block t of the whole-array function of the arrays as the region finds them. -/
theorem flushed_eq (c : Dev nD) (t : Fin cfg1.N) :
    (dat1 V c).flushed 3 t
      = ((cfg1.win 3).blk t).view.read (Elt Ideal) (bnRelu (V c main_v26_0) (V c main_v41) (V c main_v42)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz]
  rw [scale_block, shift_block]
  funext y
  obtain ⟨-, -, -, -, -, -, -, e7⟩ := idx_facts t
  show k1_pay1 (F := Ideal) (iblk1 V c 0 t) (V c main_v41) (V c main_v42) y
    = bnRelu (V c main_v26_0) (V c main_v41) (V c main_v42) (((cfg1.win 3).blk t).view.emb y)
  refine pay_eq_bnRelu _ _ _ _ y _ (hidden_block V c t y) ?_
  show win1_3.index t (1 : Fin 2) * 128 + 1 * (y 1).val = (y 1).val
  omega

/-- An index of the result array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v43).slice (win1_3.rect t)).set ↔ _
  rw [View.set_slice_whole, Rect.mem_set_unit]
  exact Iff.rfl

/-- Every index of the result array is in the block of the point (row / 2000). -/
theorem cover (i : S50000x128.Idx) : ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 25 := N_1
  let t : Fin cfg1.N := ⟨(i 0).val / 2000, by rw [hN]; omega⟩
  obtain ⟨-, -, -, -, -, -, e6, e7⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE RESULT ARRAY after the region is the whole-array function of the arrays the region found. -/
theorem bn_relu_final (c : Dev nD) :
    (dat1 V c).arrAt 3 cfg1.N = bnRelu (V c main_v26_0) (V c main_v41) (V c main_v42) :=
  (dat1 V c).arrAt_eq_of_cover 3 (bnRelu (V c main_v26_0) (V c main_v41) (V c main_v42))
    (fun t _ => flushed_eq V c t) cover

/-- … entry by entry, with the three arrays the region found named as functions to the extended reals. -/
theorem bn_relu_array (c : Dev nD) (h : S50000x128.Idx → EReal) (s b : S1x128.Idx → EReal)
    (hh : V c main_v26_0 = h) (hs : V c main_v41 = s) (hb : V c main_v42 = b) (n : Fin 50000) (j : Fin 128) :
    (Gen.dat1 (F := Ideal) V c).arrAt 3 cfg1.N (ix2 n j)
      = max (h (ix2 n j) * s (ix2 (0 : Fin 1) j) + b (ix2 (0 : Fin 1) j)) (Ideal.ofBits .f32 0x00000000#32) := by
  rw [bn_relu_final, hh, hs, hb]
  rfl

end Cert.KernelIdeal.Region1

end
-- ==== Proof.KRegion2.lean ====
/-
  The second dense combine as a whole-array function.

  The region visits 50 grid points. At point t it reads rows 1000·t … 1000·t + 999 of the neighbour-mean array and of the
  hidden array (all 128 columns), the two 128 × 64 weight arrays and the one-row bias whole, and writes the same rows of its
  result: entry (n, q) is
      (∑ k, mean[n, k] · Wl[k, q]) + (∑ k, hidden[n, k] · Wr[k, q]) + bias[0, q],
  the two products formed on operands rounded to a narrower format — the identity over the extended reals — into zero
  accumulators. Every row of the 50000 lies in exactly the block of point (row / 1000), so the result array after the
  region is that formula at every index, for ANY contents the region finds in its arrays when it is entered.
-/
import proofs.«165321_j893353197863_1_alg».proof.Proof.Gen.KernelIdeal.Frame
import proofs.«165321_j893353197863_1_alg».proof.Proof.LibTwoProducts
import Idealize.ShloMosaic.Lib.Pipeline.Value
import Idealize.ShloMosaic.Lib.ValueLayout

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-- The printed product record spells the plain product's dimension numbers. -/
theorem dot_plain : dot_S1000x128_S128x64_S1000x64_1_0_0_1_n_n = DotDims.plain 1000 128 64 := rfl

/-- The region's result as one function of the five arrays it reads. -/
def dense2 (M X : S50000x128.Idx → EReal) (Wl Wr : S128x64.Idx → EReal) (b : S1x64.Idx → EReal) : S50000x64.Idx → EReal :=
  fun i => (∑ k : Fin 128, M (ix2 (⟨(i 0).val, idx2_lt0 i⟩ : Fin 50000) k) * Wl (ix2 k (⟨(i 1).val, idx2_lt1 i⟩ : Fin 64)))
    + (∑ k : Fin 128, X (ix2 (⟨(i 0).val, idx2_lt0 i⟩ : Fin 50000) k) * Wr (ix2 k (⟨(i 1).val, idx2_lt1 i⟩ : Fin 64)))
    + b (ix2 (0 : Fin 1) (⟨(i 1).val, idx2_lt1 i⟩ : Fin 64))

theorem dense2_ix2 (M X : S50000x128.Idx → EReal) (Wl Wr : S128x64.Idx → EReal) (b : S1x64.Idx → EReal)
    (n : Fin 50000) (q : Fin 64) :
    dense2 M X Wl Wr b (ix2 n q) = (∑ k : Fin 128, M (ix2 n k) * Wl (ix2 k q)) + (∑ k : Fin 128, X (ix2 n k) * Wr (ix2 k q))
      + b (ix2 (0 : Fin 1) q) := rfl

/-- The body's stored value at an entry of the block. -/
theorem pay_apply (v0 v3 : S1000x128.Idx → EReal) (v6 v8 : S128x64.Idx → EReal) (v13 : S1x64.Idx → EReal)
    (p : Fin 1000) (q : Fin 64) :
    k2_pay1 (F := Ideal) v0 v3 v6 v8 v13 (ix2 p q)
      = (∑ k : Fin 128, v0 (ix2 p k) * v6 (ix2 k q)) + (∑ k : Fin 128, v3 (ix2 p k) * v8 (ix2 k q))
        + v13 (ix2 (0 : Fin 1) q) := by
  unfold k2_pay1
  exact TwoProducts.two_products_cast_both_apply dot_S1000x128_S128x64_S1000x64_1_0_0_1_n_n dot_plain none bitsLt_bf16_f32
    shapeCasts_S1000x128_S1000x128 shapeCasts_S1x64_S1x64 broadcasts_S1x64_S1000x64 v0 v3 v6 v8 v13 p q

/-- The same at any index of the block, against the whole-array function at an array index in the same column whose
    row of the mean and of the hidden array is the block's row. -/
theorem pay_eq_dense2 (v0 v3 : S1000x128.Idx → EReal) (Wl Wr : S128x64.Idx → EReal) (b : S1x64.Idx → EReal)
    (M X : S50000x128.Idx → EReal) (y : S1000x64.Idx) (i : S50000x64.Idx)
    (h0 : ∀ (p : Fin 1000) (k : Fin 128), p.val = (y 0).val → v0 (ix2 p k) = M (ix2 (⟨(i 0).val, idx2_lt0 i⟩ : Fin 50000) k))
    (h3 : ∀ (p : Fin 1000) (k : Fin 128), p.val = (y 0).val → v3 (ix2 p k) = X (ix2 (⟨(i 0).val, idx2_lt0 i⟩ : Fin 50000) k))
    (h1 : (i 1).val = (y 1).val) :
    k2_pay1 (F := Ideal) v0 v3 Wl Wr b y = dense2 M X Wl Wr b i := by
  obtain ⟨p, q, rfl⟩ : ∃ (p : Fin 1000) (q : Fin 64), y = ix2 p q := ⟨y 0, y 1, eq_ix2 y⟩
  have e : (⟨(i 1).val, idx2_lt1 i⟩ : Fin 64) = q := Fin.ext h1
  rw [pay_apply]
  unfold dense2
  rw [e]
  refine congrArg₂ (· + ·) (congrArg₂ (· + ·) (Finset.sum_congr rfl fun k _ => ?_) (Finset.sum_congr rfl fun k _ => ?_)) rfl
  · rw [h0 p k rfl]
  · rw [h3 p k rfl]

variable (V : (c : Dev nD) → (b : Ref sig .tc) → Buf (Elt Ideal) ((c : Thread nD τ).loc b))

/-- The printed index maps over the 50 points: the row-block windows sit at block (t, 0), the whole-array windows at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour weight's block is the whole array at every point. -/
theorem wl_block (c : Dev nD) (t : Fin cfg2.N) : iblk2 V c 2 t = V c main_arg7 := by
  obtain ⟨-, -, -, -, e0, e1, -⟩ := idx_facts t
  funext y
  unfold iblk2
  rw [View.read_apply]
  show V c main_arg7 (((cfg2.win 2).blk t).view.emb y) = V c main_arg7 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The root weight's block is the whole array at every point. -/
theorem wr_block (c : Dev nD) (t : Fin cfg2.N) : iblk2 V c 3 t = V c main_arg8 := by
  obtain ⟨-, -, -, -, -, -, e0, e1, -⟩ := idx_facts t
  funext y
  unfold iblk2
  rw [View.read_apply]
  show V c main_arg8 (((cfg2.win 3).blk t).view.emb y) = V c main_arg8 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- The bias window's block is the whole one-row array at every point. -/
theorem bias_block (c : Dev nD) (t : Fin cfg2.N) : iblk2 V c 4 t = V c main_v57 := by
  obtain ⟨-, -, -, -, -, -, -, -, e0, e1, -⟩ := idx_facts t
  funext y
  unfold iblk2
  rw [View.read_apply]
  show V c main_v57 (((cfg2.win 4).blk t).view.emb y) = V c main_v57 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- An entry of the mean's block at point t is the array's entry in row 1000·t + (the block's row). -/
theorem mean_block (c : Dev nD) (t : Fin cfg2.N) (p : Fin 1000) (k : Fin 128) (n : Fin 50000)
    (hn : n.val = t.val * 1000 + p.val) :
    (iblk2 V c 0 t : S1000x128.Idx → EReal) (ix2 p k) = (V c main_v56 : S50000x128.Idx → EReal) (ix2 n k) := by
  obtain ⟨e0, e1, -⟩ := idx_facts t
  unfold iblk2
  rw [View.read_apply]
  show V c main_v56 (((cfg2.win 0).blk t).view.emb (ix2 p k)) = V c main_v56 (ix2 n k)
  refine congrArg _ (funext fun a => Fin.ext ?_)
  match a with
  | ⟨0, _⟩ => show win2_0.index t (0 : Fin 2) * 1000 + 1 * p.val = n.val; omega
  | ⟨1, _⟩ => show win2_0.index t (1 : Fin 2) * 128 + 1 * k.val = k.val; omega

/-- … and likewise for the hidden array's block. -/
theorem hidden_block (c : Dev nD) (t : Fin cfg2.N) (p : Fin 1000) (k : Fin 128) (n : Fin 50000)
    (hn : n.val = t.val * 1000 + p.val) :
    (iblk2 V c 1 t : S1000x128.Idx → EReal) (ix2 p k) = (V c main_v43 : S50000x128.Idx → EReal) (ix2 n k) := by
  obtain ⟨-, -, e0, e1, -⟩ := idx_facts t
  unfold iblk2
  rw [View.read_apply]
  show V c main_v43 (((cfg2.win 1).blk t).view.emb (ix2 p k)) = V c main_v43 (ix2 n k)
  refine congrArg _ (funext fun a => Fin.ext ?_)
  match a with
  | ⟨0, _⟩ => show win2_1.index t (0 : Fin 2) * 1000 + 1 * p.val = n.val; omega
  | ⟨1, _⟩ => show win2_1.index t (1 : Fin 2) * 128 + 1 * k.val = k.val; omega

/-- WHAT POINT t WRITES BACK is block t of the whole-array function of the arrays as the region finds them. -/
theorem flushed_eq (c : Dev nD) (t : Fin cfg2.N) :
    (dat2 V c).flushed 5 t = ((cfg2.win 5).blk t).view.read (Elt Ideal)
      (dense2 (V c main_v56) (V c main_v43) (V c main_arg7) (V c main_arg8) (V c main_v57)) := by
  show (cfg2.win 5).cut (grid2.coords t) ((dat2 V c).after 5 t) = _
  rw [after2_5]
  unfold out2_5
  rw [View.canon_unit_zero hz]
  simp only [View.ld_unit_zero (S := S1000x128) hz, View.ld_unit_zero (S := S128x64) hz, View.ld_unit_zero (S := S1x64) hz]
  rw [wl_block, wr_block, bias_block]
  funext y
  obtain ⟨-, -, -, -, -, -, -, -, -, -, e10, e11⟩ := idx_facts t
  show k2_pay1 (F := Ideal) (iblk2 V c 0 t) (iblk2 V c 1 t) (V c main_arg7) (V c main_arg8) (V c main_v57) y
    = dense2 (V c main_v56) (V c main_v43) (V c main_arg7) (V c main_arg8) (V c main_v57) (((cfg2.win 5).blk t).view.emb y)
  have hrow : ((((cfg2.win 5).blk t).view.emb y : S50000x64.Idx) 0).val = t.val * 1000 + (y 0).val := by
    show win2_5.index t (0 : Fin 2) * 1000 + 1 * (y 0).val = _
    omega
  refine pay_eq_dense2 _ _ _ _ _ _ _ y _ (fun p k hp => mean_block V c t p k _ ?_) (fun p k hp => hidden_block V c t p k _ ?_) ?_
  · show ((((cfg2.win 5).blk t).view.emb y : S50000x64.Idx) 0).val = t.val * 1000 + p.val
    omega
  · show ((((cfg2.win 5).blk t).view.emb y : S50000x64.Idx) 0).val = t.val * 1000 + p.val
    omega
  · show win2_5.index t (1 : Fin 2) * 64 + 1 * (y 1).val = (y 1).val
    omega

/-- An index of the result array is in point t's block iff each coordinate is in the block's range on its axis. -/
theorem mem_blk (t : Fin cfg2.N) (i : S50000x64.Idx) :
    i ∈ ((cfg2.win 5).blk t).view.set ↔ ∀ a : Fin 2, win2_5.index t a * S1000x64.size a ≤ (i a).val
      ∧ (i a).val < win2_5.index t a * S1000x64.size a + S1000x64.size a := by
  show i ∈ ((View.whole main_v58).slice (win2_5.rect t)).set ↔ _
  rw [View.set_slice_whole, Rect.mem_set_unit]
  exact Iff.rfl

/-- Every index of the result array is in the block of the point (row / 1000). -/
theorem cover (i : S50000x64.Idx) : ∃ t : Fin cfg2.N, (cfg2.win 5).flush t = true ∧ i ∈ ((cfg2.win 5).blk t).view.set := by
  have hi0 : (i 0).val < 50000 := idx2_lt0 i
  have hi1 : (i 1).val < 64 := idx2_lt1 i
  have hN : cfg2.N = 50 := N_2
  let t : Fin cfg2.N := ⟨(i 0).val / 1000, by rw [hN]; omega⟩
  obtain ⟨-, -, -, -, -, -, -, -, -, -, e10, e11⟩ := idx_facts t
  have ht : t.val = (i 0).val / 1000 := rfl
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 64 ≤ (i 1).val ∧ (i 1).val < win2_5.index t (1 : Fin 2) * 64 + 64; omega

/-- THE RESULT ARRAY after the region is the whole-array function of the arrays the region found. -/
theorem dense2_final (c : Dev nD) :
    (dat2 V c).arrAt 5 cfg2.N = dense2 (V c main_v56) (V c main_v43) (V c main_arg7) (V c main_arg8) (V c main_v57) :=
  (dat2 V c).arrAt_eq_of_cover 5 (dense2 (V c main_v56) (V c main_v43) (V c main_arg7) (V c main_arg8) (V c main_v57))
    (fun t _ => flushed_eq V c t) cover

/-- … entry by entry, with the five arrays the region found named as functions to the extended reals. -/
theorem dense2_array (c : Dev nD) (M X : S50000x128.Idx → EReal) (Wl Wr : S128x64.Idx → EReal) (b : S1x64.Idx → EReal)
    (hM : V c main_v56 = M) (hX : V c main_v43 = X) (hWl : V c main_arg7 = Wl) (hWr : V c main_arg8 = Wr)
    (hb : V c main_v57 = b) (n : Fin 50000) (q : Fin 64) :
    (Gen.dat2 (F := Ideal) V c).arrAt 5 cfg2.N (ix2 n q)
      = (∑ k : Fin 128, M (ix2 n k) * Wl (ix2 k q)) + (∑ k : Fin 128, X (ix2 n k) * Wr (ix2 k q)) + b (ix2 (0 : Fin 1) q) := by
  rw [dense2_final, hM, hX, hWl, hWr, hb]
  rfl

end Cert.KernelIdeal.Region2

end
-- ==== Proof.KValue.lean ====
/-
  What the idealized kernel's result array ends holding, as one table of the launched arrays.

  Through the six segments: the first host stretch leaves the neighbour mean of the features (the neighbour sum times the
  reciprocal clipped degree); the first region leaves the hidden array h = mean · W_l + x · W_r + b and its column sums and
  column sums of squares; the second stretch turns those into one scale and one shift per column; the second region leaves
  a = max (h · scale + shift) 0; the third stretch takes the neighbour mean of a; the third region leaves
  mean(a) · W_l' + a · W_r' + b'. Entry by entry this is the product / scale-and-shift spelling of the network.
-/
import proofs.«165321_j893353197863_1_alg».proof.Proof.Spec
import proofs.«165321_j893353197863_1_alg».proof.Proof.KHost1
import proofs.«165321_j893353197863_1_alg».proof.Proof.KHost2
import proofs.«165321_j893353197863_1_alg».proof.Proof.KRegion0c
import proofs.«165321_j893353197863_1_alg».proof.Proof.KRegion1
import proofs.«165321_j893353197863_1_alg».proof.Proof.KRegion2

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.KHost

variable (m : (ℓ : Loc nD τ sig) → Buf (Elt Ideal) ℓ) (ρ : Dev nD → PrngReg) (c : Dev nD)

/-- The launched arrays on core c. -/
abbrev EI : (⟨S2x800000, .i32⟩ : BufTy).Contents (Elt Ideal) := (m ((c : Thread nD τ).loc main_arg1))
abbrev X0 : FVec Ideal S50000x128 .f32 := (m ((c : Thread nD τ).loc main_arg0))
abbrev WL1 : FVec Ideal S128x128 .f32 := (m ((c : Thread nD τ).loc main_arg2))
abbrev WR1 : FVec Ideal S128x128 .f32 := (m ((c : Thread nD τ).loc main_arg3))
abbrev B1 : FVec Ideal S128 .f32 := (m ((c : Thread nD τ).loc main_arg4))
abbrev GA : FVec Ideal S128 .f32 := (m ((c : Thread nD τ).loc main_arg5))
abbrev BE : FVec Ideal S128 .f32 := (m ((c : Thread nD τ).loc main_arg6))
abbrev WL2 : FVec Ideal S128x64 .f32 := (m ((c : Thread nD τ).loc main_arg7))
abbrev WR2 : FVec Ideal S128x64 .f32 := (m ((c : Thread nD τ).loc main_arg8))
abbrev B2 : FVec Ideal S64 .f32 := (m ((c : Thread nD τ).loc main_arg9))

/-- The hidden table and the activations, in the product / scale-and-shift spelling. -/
abbrev HID : Cert.SageSpec.Tab 50000 128 :=
  Cert.SageSpec.hidK (aggK (EI m c)) (CK (EI m c)) (X0 m c) (WL1 m c) (WR1 m c) (B1 m c)
abbrev ACT : Cert.SageSpec.Tab 50000 128 := Cert.SageSpec.actK (HID m c) (GA m c) (BE m c)

/-- The neighbour mean at an entry: the neighbour sum's entry times the reciprocal of the node's clipped degree. -/
theorem meanK_apply (ei : (⟨S2x800000, .i32⟩ : BufTy).Contents (Elt Ideal)) (X : FVec Ideal S50000x128 .f32)
    (n : Fin 50000) (k : Fin 128) :
    meanK ei X (ix2 n k) = aggK ei X (ix2 n k) * Ideal.div Cert.SageSpec.one32 (CK ei (ix1 n)) := by
  unfold meanK CK
  rw [rowScale_apply, invD_apply]

/-! ## The first region: the hidden array and its column statistics -/

/-- The hidden array, over the launched arrays. -/
def hid : S50000x128.Idx → EReal :=
  Region0.dense1 (meanK (EI m c) (X0 m c)) (X0 m c) (WL1 m c) (WR1 m c) (shapeCast S1x128 (B1 m c) shapeCasts_S128_S1x128)

theorem hiddenArr_eq : Region0.hiddenArr (V1 m ρ) c = hid m c := by
  show Region0.dense1 (V1 m ρ c main_v24) (V1 m ρ c main_arg0) (V1 m ρ c main_arg2) (V1 m ρ c main_arg3) (V1 m ρ c main_v25) = _
  rw [entry_mean, entry_features, entry_wl, entry_wr, entry_bias]
  rfl

/-- Its entries are the hidden table's. -/
theorem hid_apply (n : Fin 50000) (j : Fin 128) : hid m c (ix2 n j) = HID m c n j := by
  unfold hid
  rw [Region0.dense1_ix2, row_apply]
  show _ = (∑ k : Fin 128, Cert.SageSpec.meanP (aggK (EI m c)) (CK (EI m c)) (X0 m c) n k * WL1 m c (ix2 k j))
    + (∑ k : Fin 128, Cert.SageSpec.tab (X0 m c) n k * WR1 m c (ix2 k j)) + B1 m c (ix1 j)
  refine congrArg₂ (· + ·) (congrArg₂ (· + ·) (Finset.sum_congr rfl fun k _ => ?_) rfl) rfl
  rw [meanK_apply]
  rfl

/-- The two statistics arrays hold the hidden table's column sums and column sums of squares. -/
theorem colSum_apply (j : Fin 128) :
    ((dat0 (V1 m ρ) c).arrAt 6 cfg0.N (ix2 (0 : Fin 1) j) : EReal) = Cert.SageSpec.colSum (HID m c) j := by
  rw [Region0.sum_array, hiddenArr_eq]
  show (∑ n : Fin 50000, hid m c (ix2 n j)) = Cert.SageSpec.colSum (HID m c) j
  exact Finset.sum_congr rfl fun n _ => hid_apply m c n j

theorem colSumSq_apply (j : Fin 128) :
    ((dat0 (V1 m ρ) c).arrAt 7 cfg0.N (ix2 (0 : Fin 1) j) : EReal) = Cert.SageSpec.colSumSq (HID m c) j := by
  rw [Region0.sumsq_array, hiddenArr_eq]
  show (∑ n : Fin 50000, hid m c (ix2 n j) * hid m c (ix2 n j)) = Cert.SageSpec.colSumSq (HID m c) j
  exact Finset.sum_congr rfl fun n _ => by rw [hid_apply]

/-! ## The second region: the activations -/

theorem hidden_kept : V3 m ρ c main_v26_0 = hid m c :=
  (norm_hidden m ρ c).trans ((W2_arr m ρ c 5).trans ((Region0.hidden_final (V1 m ρ) c).trans (hiddenArr_eq m ρ c)))

/-- The second region's output array is the activations' table. -/
theorem act_arr : (dat1 (V3 m ρ) c).arrAt 3 cfg1.N = Cert.SageSpec.mat (ACT m c) := by
  funext i
  obtain ⟨n, j, rfl⟩ : ∃ (n : Fin 50000) (j : Fin 128), i = ix2 n j := ⟨i 0, i 1, eq_ix2 i⟩
  rw [Cert.SageSpec.mat_ix2]
  rw [Region1.bn_relu_array (V3 m ρ) c (hid m c) _ _ (hidden_kept m ρ c) (norm_scale m ρ c) (norm_shift m ρ c) n j]
  rw [row_apply, row_apply, shiftVec_apply, scaleVec_apply]
  have e1 : (W2 m ρ c (Proc.devRef .tc main_v26_1) : S1x128.Idx → EReal) (ix2 (0 : Fin 1) j)
      = Cert.SageSpec.colSum (HID m c) j := (congrFun (W2_arr m ρ c 6) _).trans (colSum_apply m ρ c j)
  have e2 : (W2 m ρ c (Proc.devRef .tc main_v26_2) : S1x128.Idx → EReal) (ix2 (0 : Fin 1) j)
      = Cert.SageSpec.colSumSq (HID m c) j := (congrFun (W2_arr m ρ c 7) _).trans (colSumSq_apply m ρ c j)
  rw [e1, e2, hid_apply]
  show _ = Cert.SageSpec.actK (HID m c) (GA m c) (BE m c) n j
  simp only [Cert.SageSpec.actK, Cert.SageSpec.scaleK, Cert.SageSpec.shiftK, Cert.SageSpec.varK, Cert.SageSpec.mu]

/-! ## The third region: the result -/

theorem act_kept : W4 m ρ c (Proc.devRef .tc main_v43) = Cert.SageSpec.mat (ACT m c) :=
  (W4_arr m ρ c 3).trans (act_arr m ρ c)

/-- The third region's output at an entry: the second layer's dense combine of the activations' neighbour mean and the activations. -/
theorem out_apply (n : Fin 50000) (q : Fin 64) :
    ((dat2 (V5 m ρ) c).arrAt 5 cfg2.N (ix2 n q) : EReal)
      = Cert.SageSpec.outK (aggK (EI m c)) (CK (EI m c)) (X0 m c) (WL1 m c) (WR1 m c) (B1 m c) (GA m c) (BE m c) (WL2 m c) (WR2 m c) (B2 m c) n q := by
  rw [Region2.dense2_array (V5 m ρ) c (meanK (EI m c) (Cert.SageSpec.mat (ACT m c))) (Cert.SageSpec.mat (ACT m c)) (WL2 m c) (WR2 m c)
    (shapeCast S1x64 (B2 m c) shapeCasts_S64_S1x64)
    ((exit_mean m ρ c).trans (by rw [act_kept])) ((exit_hidden m ρ c).trans (act_kept m ρ c)) (exit_wl m ρ c) (exit_wr m ρ c)
    (exit_bias m ρ c) n q]
  rw [shapeCast_a_1a_apply]
  show (_ : EReal) = (∑ k : Fin 128, Cert.SageSpec.meanP (aggK (EI m c)) (CK (EI m c)) (Cert.SageSpec.mat (ACT m c)) n k * WL2 m c (ix2 k q))
    + (∑ k : Fin 128, ACT m c n k * WR2 m c (ix2 k q)) + B2 m c (ix1 q)
  refine congrArg₂ (· + ·) (congrArg₂ (· + ·) (Finset.sum_congr rfl fun k _ => ?_) (Finset.sum_congr rfl fun k _ => ?_)) rfl
  · rw [meanK_apply]
    rfl
  · rw [Cert.SageSpec.mat_ix2]

/-- THE KERNEL'S VALUE: the result array ends at the network's table in the product / scale-and-shift spelling. -/
theorem result_eq :
    (W6 (F := Ideal) m ρ c (Proc.devRef .tc main_v58) : S50000x64.Idx → EReal)
      = Cert.SageSpec.mat (Cert.SageSpec.outK (aggK (m ((c : Thread nD τ).loc main_arg1))) (CK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W6_arr m ρ c 5).trans ?_
  funext i
  obtain ⟨n, q, rfl⟩ : ∃ (n : Fin 50000) (q : Fin 64), i = ix2 n q := ⟨i 0, i 1, eq_ix2 i⟩
  rw [Cert.SageSpec.mat_ix2]
  exact out_apply m ρ c n q

end Cert.KernelIdeal.KValue

end
-- ==== Proof.RefOps.lean ====
/-
  The reference program's @main as a list of its array operations.

  @main is a straight line of 113 operations once its three calls are unfolded (the per-column variance, which itself
  calls a select, and the cut at zero). The list is cut where the mathematics cuts it: the first layer up to the
  hidden array and its column means; the variance; the normalisation and the cut at zero; the second layer. For each
  stretch: that every operation touches TensorCore buffers only and determines its result, and which buffers it writes
  (so every other buffer is carried through unchanged).
-/
import proofs.«165321_j893353197863_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The first layer: the two rows of the edge list, the gathered and scatter-added neighbour sum, the clipped in-degree,
    the dense combine giving the hidden array (`main_v28`), its column means (`main_v31`), and the integer zero the variance reads. -/
abbrev A : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v23 main_v24 main_v25 (addf : (⟨S50000x128, .f32⟩ : BufTy).Contents (Elt F) → (⟨S50000x128, .f32⟩ : BufTy).Contents (Elt F) → (⟨S50000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v28 main_cst_4 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    nullary main_c_6 (constantI S_ 32 0#32) ]

/-- The per-column variance of the hidden array, its call unfolded: the column means once more, the squared deviations summed,
    divided by `50000 − 0`, and the select on `50000 − 0 > 0` against the not-a-number word (`main_v32`). -/
abbrev B : List (HloOp τ sig (Elt F)) :=
  [ TRef.nullary main_call0.cst (constant S_ .f32 0x00000000#32),
    TRef.binary (.of main_v28) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v28) main_call0.v4 main_call0.v5 subf,
    TRef.binary main_call0.v5 main_call0.v5 main_call0.v6 mulf,
    TRef.unary (.of main_c_6) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The normalisation `γ · (h − μ) · rsqrt (var + ε) + β` and the cut at zero (its call unfolded), giving the activation (`main_v48`);
    then the integer zero the second layer's index test reads. -/
abbrev C : List (HloOp τ sig (Elt F)) :=
  [ unary main_v31 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v28 main_v34 main_v35 (subf : (⟨S50000x128, .f32⟩ : BufTy).Contents (Elt F) → (⟨S50000x128, .f32⟩ : BufTy).Contents (Elt F) → (⟨S50000x128, .f32⟩ : BufTy).Contents (Elt F)),
    unary main_arg5 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v37 main_v35 main_v38 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v39 (broadcastInDim S128 ![] bcast_S_S128 : (⟨S_, .f32⟩ : BufTy).Contents (Elt F) → (⟨S128, .f32⟩ : BufTy).Contents (Elt F)),
    binary main_v32 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v38 main_v43 main_v44 (mulf : (⟨S50000x128, .f32⟩ : BufTy).Contents (Elt F) → (⟨S50000x128, .f32⟩ : BufTy).Contents (Elt F) → (⟨S50000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v47) main_call1.v0 main_call1.v1 maximumf,
    nullary main_c_8 (constantI S_ 32 0#32) ]

/-- The second layer, on the activation: neighbour sum, clipped in-degree, dense combine (`main_v73`). -/
abbrev D : List (HloOp τ sig (Elt F)) :=
  [ unary main_c_8 main_v49 (broadcastInDim S800000 ![] bcast_S_S800000 : (⟨S_, .i32⟩ : BufTy).Contents (Elt F) → (⟨S800000, .i32⟩ : BufTy).Contents (Elt F)),
    binary main_v1 main_v49 main_v50 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v51 (broadcastInDim S800000 ![] bcast_S_S800000 : (⟨S_, .i32⟩ : BufTy).Contents (Elt F) → (⟨S800000, .i32⟩ : BufTy).Contents (Elt F)),
    binary main_v1 main_v51 main_v52 (addi : (⟨S800000, .i32⟩ : BufTy).Contents (Elt F) → (⟨S800000, .i32⟩ : BufTy).Contents (Elt F) → (⟨S800000, .i32⟩ : BufTy).Contents (Elt F)),
    ternary main_v50 main_v52 main_v1 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v53 main_v54 (broadcastInDim S800000x1 ![0] bcast_S800000_S800000x1_0 : (⟨S800000, .i32⟩ : BufTy).Contents (Elt F) → (⟨S800000x1, .i32⟩ : BufTy).Contents (Elt F)),
    binary main_v48 main_v54 main_v55 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v56 (broadcastInDim S50000x128 ![] bcast_S_S50000x128 : (⟨S_, .f32⟩ : BufTy).Contents (Elt F) → (⟨S50000x128, .f32⟩ : BufTy).Contents (Elt F)),
    unary main_v3 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_11 (constant S_ .f32 0x3F800000#32),
    unary main_cst_11 main_v59 (broadcastInDim S800000 ![] bcast_S_S800000 : (⟨S_, .f32⟩ : BufTy).Contents (Elt F) → (⟨S800000, .f32⟩ : BufTy).Contents (Elt F)),
    nullary main_cst_12 (constant S_ .f32 0x00000000#32),
    unary main_cst_12 main_v60 (broadcastInDim S50000 ![] bcast_S_S50000 : (⟨S_, .f32⟩ : BufTy).Contents (Elt F) → (⟨S50000, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x3F800000#32),
    unary main_cst_13 main_v63 (broadcastInDim S50000 ![] bcast_S_S50000 : (⟨S_, .f32⟩ : BufTy).Contents (Elt F) → (⟨S50000, .f32⟩ : BufTy).Contents (Elt F)),
    binary main_v62 main_v63 main_v64 (maximumf : (⟨S50000, .f32⟩ : BufTy).Contents (Elt F) → (⟨S50000, .f32⟩ : BufTy).Contents (Elt F) → (⟨S50000, .f32⟩ : BufTy).Contents (Elt F)),
    unary main_v64 main_v65 (broadcastInDim S50000x1 ![0] bcast_S50000_S50000x1_0 : (⟨S50000, .f32⟩ : BufTy).Contents (Elt F) → (⟨S50000x1, .f32⟩ : BufTy).Contents (Elt F)),
    unary main_v65 main_v66 (broadcastInDim S50000x128 ![0, 1] bcast_S50000x1_S50000x128_0_1 : (⟨S50000x1, .f32⟩ : BufTy).Contents (Elt F) → (⟨S50000x128, .f32⟩ : BufTy).Contents (Elt F)),
    binary main_v58 main_v66 main_v67 (Host.divf : (⟨S50000x128, .f32⟩ : BufTy).Contents (Elt F) → (⟨S50000x128, .f32⟩ : BufTy).Contents (Elt F) → (⟨S50000x128, .f32⟩ : BufTy).Contents (Elt F)),
    binary main_v67 main_arg7 main_v68 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v48 main_arg8 main_v69 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v68 main_v69 main_v70 (addf : (⟨S50000x64, .f32⟩ : BufTy).Contents (Elt F) → (⟨S50000x64, .f32⟩ : BufTy).Contents (Elt F) → (⟨S50000x64, .f32⟩ : BufTy).Contents (Elt F)),
    unary main_arg9 main_v71 (broadcastInDim S1x64 ![1] bcast_S64_S1x64_1 : (⟨S64, .f32⟩ : BufTy).Contents (Elt F) → (⟨S1x64, .f32⟩ : BufTy).Contents (Elt F)),
    unary main_v71 main_v72 (broadcastInDim S50000x64 ![0, 1] bcast_S1x64_S50000x64_0_1 : (⟨S1x64, .f32⟩ : BufTy).Contents (Elt F) → (⟨S50000x64, .f32⟩ : BufTy).Contents (Elt F)),
    binary main_v70 main_v72 main_v73 (addf : (⟨S50000x64, .f32⟩ : BufTy).Contents (Elt F) → (⟨S50000x64, .f32⟩ : BufTy).Contents (Elt F) → (⟨S50000x64, .f32⟩ : BufTy).Contents (Elt F)) ]

/-- @main's 113 operations, in order. -/
abbrev ops : List (HloOp τ sig (Elt F)) := A ++ (B ++ (C ++ D))

/-! ## @main is that straight line -/

set_option maxRecDepth 8192 in
set_option maxHeartbeats 4000000 in
/-- The first window of @main, its two calls unfolded, is the first three stretches. -/
theorem main_part0_eq (c : Dev nD) : main_part0 (F := F) c = seq (A ++ (B ++ C)) := rfl

set_option maxRecDepth 8192 in
/-- The second window is the fourth. -/
theorem main_part1_eq (c : Dev nD) : main_part1 (F := F) c = seq D := rfl

theorem main_eq (c : Dev nD) : main (F := F) c = seq ops := by
  have h : (ops : List (HloOp τ sig (Elt F))) = (A ++ (B ++ C)) ++ D := by simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What each stretch touches and writes -/

/-- A written buffer listed among the stretch's written buffers. -/
theorem w_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem A_sub : (A : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..⟩

theorem A_fresh : ∀ op ∈ (A : List (HloOp τ sig (Elt F))), op.fresh = ∅ := by
  intro _ h; (repeat (cases h with | head => rfl | tail _ h => ?_)); exact nomatch h

/-- The buffers this stretch writes. -/
abbrev A_W : List (Ref sig .tc) :=
  [main_v0, main_v1, main_v2, main_v3, main_c, main_v4, main_v5, main_c_0, main_v6, main_v7,
   main_v8, main_v9, main_v10, main_cst, main_v11, main_v12, main_v13, main_cst_1, main_v14, main_cst_2,
   main_v15, main_v16, main_v17, main_cst_3, main_v18, main_v19, main_v20, main_v21, main_v22, main_v23,
   main_v24, main_v25, main_v26, main_v27, main_v28, main_cst_4, main_v29, main_cst_5, main_v30, main_v31,
   main_c_6]

theorem A_writes : (A : List (HloOp τ sig (Elt F))).Forall fun op =>
    op.writes ⊆ (A_W.map (Proc.devRef (τ := τ) .tc)).toFinset :=
  ⟨w_mem (y := main_v0) (by decide), w_mem (y := main_v1) (by decide), w_mem (y := main_v2) (by decide),
    w_mem (y := main_v3) (by decide), w_mem (y := main_c) (by decide), w_mem (y := main_v4) (by decide),
    w_mem (y := main_v5) (by decide), w_mem (y := main_c_0) (by decide), w_mem (y := main_v6) (by decide),
    w_mem (y := main_v7) (by decide), w_mem (y := main_v8) (by decide), w_mem (y := main_v9) (by decide),
    w_mem (y := main_v10) (by decide), w_mem (y := main_cst) (by decide), w_mem (y := main_v11) (by decide),
    w_mem (y := main_v12) (by decide), w_mem (y := main_v13) (by decide), w_mem (y := main_cst_1) (by decide),
    w_mem (y := main_v14) (by decide), w_mem (y := main_cst_2) (by decide), w_mem (y := main_v15) (by decide),
    w_mem (y := main_v16) (by decide), w_mem (y := main_v17) (by decide), w_mem (y := main_cst_3) (by decide),
    w_mem (y := main_v18) (by decide), w_mem (y := main_v19) (by decide), w_mem (y := main_v20) (by decide),
    w_mem (y := main_v21) (by decide), w_mem (y := main_v22) (by decide), w_mem (y := main_v23) (by decide),
    w_mem (y := main_v24) (by decide), w_mem (y := main_v25) (by decide), w_mem (y := main_v26) (by decide),
    w_mem (y := main_v27) (by decide), w_mem (y := main_v28) (by decide), w_mem (y := main_cst_4) (by decide),
    w_mem (y := main_v29) (by decide), w_mem (y := main_cst_5) (by decide), w_mem (y := main_v30) (by decide),
    w_mem (y := main_v31) (by decide), w_mem (y := main_c_6) (by decide)⟩

/-- A buffer this stretch does not write keeps its contents through it. -/
theorem A_keep (V : Valuation τ sig (Elt F)) (r : Ref sig .tc) (h : r ∉ A_W) :
    after A V (Proc.devRef .tc r) = V (Proc.devRef .tc r) :=
  after_of_writes_sub A V A_writes h

theorem B_sub : (B : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem B_fresh : ∀ op ∈ (B : List (HloOp τ sig (Elt F))), op.fresh = ∅ := by
  intro _ h; (repeat (cases h with | head => rfl | tail _ h => ?_)); exact nomatch h

/-- The buffers this stretch writes. -/
abbrev B_W : List (Ref sig .tc) :=
  [main_call0_cst, main_call0_v0, main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12, main_call0_cst_4, main_call0_call0_v0,
   main_call0_call0_v1, main_v32]

theorem B_writes : (B : List (HloOp τ sig (Elt F))).Forall fun op =>
    op.writes ⊆ (B_W.map (Proc.devRef (τ := τ) .tc)).toFinset :=
  ⟨w_mem (y := main_call0_cst) (by decide), w_mem (y := main_call0_v0) (by decide), w_mem (y := main_call0_v1) (by decide),
    w_mem (y := main_call0_cst_0) (by decide), w_mem (y := main_call0_v2) (by decide), w_mem (y := main_call0_v3) (by decide),
    w_mem (y := main_call0_v4) (by decide), w_mem (y := main_call0_v5) (by decide), w_mem (y := main_call0_v6) (by decide),
    w_mem (y := main_call0_v7) (by decide), w_mem (y := main_call0_cst_1) (by decide), w_mem (y := main_call0_v8) (by decide),
    w_mem (y := main_call0_cst_2) (by decide), w_mem (y := main_call0_v9) (by decide), w_mem (y := main_call0_v10) (by decide),
    w_mem (y := main_call0_v11) (by decide), w_mem (y := main_call0_cst_3) (by decide), w_mem (y := main_call0_v12) (by decide),
    w_mem (y := main_call0_cst_4) (by decide), w_mem (y := main_call0_call0_v0) (by decide), w_mem (y := main_call0_call0_v1) (by decide),
    w_mem (y := main_v32) (by decide)⟩

/-- A buffer this stretch does not write keeps its contents through it. -/
theorem B_keep (V : Valuation τ sig (Elt F)) (r : Ref sig .tc) (h : r ∉ B_W) :
    after B V (Proc.devRef .tc r) = V (Proc.devRef .tc r) :=
  after_of_writes_sub B V B_writes h

theorem C_sub : (C : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub ..⟩

theorem C_fresh : ∀ op ∈ (C : List (HloOp τ sig (Elt F))), op.fresh = ∅ := by
  intro _ h; (repeat (cases h with | head => rfl | tail _ h => ?_)); exact nomatch h

/-- The buffers this stretch writes. -/
abbrev C_W : List (Ref sig .tc) :=
  [main_v33, main_v34, main_v35, main_v36, main_v37, main_v38, main_cst_7, main_v39, main_v40, main_v41,
   main_v42, main_v43, main_v44, main_v45, main_v46, main_v47, main_call1_cst, main_call1_v0, main_v48, main_c_8]

theorem C_writes : (C : List (HloOp τ sig (Elt F))).Forall fun op =>
    op.writes ⊆ (C_W.map (Proc.devRef (τ := τ) .tc)).toFinset :=
  ⟨w_mem (y := main_v33) (by decide), w_mem (y := main_v34) (by decide), w_mem (y := main_v35) (by decide),
    w_mem (y := main_v36) (by decide), w_mem (y := main_v37) (by decide), w_mem (y := main_v38) (by decide),
    w_mem (y := main_cst_7) (by decide), w_mem (y := main_v39) (by decide), w_mem (y := main_v40) (by decide),
    w_mem (y := main_v41) (by decide), w_mem (y := main_v42) (by decide), w_mem (y := main_v43) (by decide),
    w_mem (y := main_v44) (by decide), w_mem (y := main_v45) (by decide), w_mem (y := main_v46) (by decide),
    w_mem (y := main_v47) (by decide), w_mem (y := main_call1_cst) (by decide), w_mem (y := main_call1_v0) (by decide),
    w_mem (y := main_v48) (by decide), w_mem (y := main_c_8) (by decide)⟩

/-- A buffer this stretch does not write keeps its contents through it. -/
theorem C_keep (V : Valuation τ sig (Elt F)) (r : Ref sig .tc) (h : r ∉ C_W) :
    after C V (Proc.devRef .tc r) = V (Proc.devRef .tc r) :=
  after_of_writes_sub C V C_writes h

theorem D_sub : (D : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., binary_bufs_sub .., binary_bufs_sub .., unary_bufs_sub .., unary_bufs_sub .., binary_bufs_sub ..⟩

theorem D_fresh : ∀ op ∈ (D : List (HloOp τ sig (Elt F))), op.fresh = ∅ := by
  intro _ h; (repeat (cases h with | head => rfl | tail _ h => ?_)); exact nomatch h

/-- The buffers this stretch writes. -/
abbrev D_W : List (Ref sig .tc) :=
  [main_v49, main_v50, main_c_9, main_v51, main_v52, main_v53, main_v54, main_v55, main_cst_10, main_v56,
   main_v57, main_v58, main_cst_11, main_v59, main_cst_12, main_v60, main_v61, main_v62, main_cst_13, main_v63,
   main_v64, main_v65, main_v66, main_v67, main_v68, main_v69, main_v70, main_v71, main_v72, main_v73]

theorem D_writes : (D : List (HloOp τ sig (Elt F))).Forall fun op =>
    op.writes ⊆ (D_W.map (Proc.devRef (τ := τ) .tc)).toFinset :=
  ⟨w_mem (y := main_v49) (by decide), w_mem (y := main_v50) (by decide), w_mem (y := main_c_9) (by decide),
    w_mem (y := main_v51) (by decide), w_mem (y := main_v52) (by decide), w_mem (y := main_v53) (by decide),
    w_mem (y := main_v54) (by decide), w_mem (y := main_v55) (by decide), w_mem (y := main_cst_10) (by decide),
    w_mem (y := main_v56) (by decide), w_mem (y := main_v57) (by decide), w_mem (y := main_v58) (by decide),
    w_mem (y := main_cst_11) (by decide), w_mem (y := main_v59) (by decide), w_mem (y := main_cst_12) (by decide),
    w_mem (y := main_v60) (by decide), w_mem (y := main_v61) (by decide), w_mem (y := main_v62) (by decide),
    w_mem (y := main_cst_13) (by decide), w_mem (y := main_v63) (by decide), w_mem (y := main_v64) (by decide),
    w_mem (y := main_v65) (by decide), w_mem (y := main_v66) (by decide), w_mem (y := main_v67) (by decide),
    w_mem (y := main_v68) (by decide), w_mem (y := main_v69) (by decide), w_mem (y := main_v70) (by decide),
    w_mem (y := main_v71) (by decide), w_mem (y := main_v72) (by decide), w_mem (y := main_v73) (by decide)⟩

/-- A buffer this stretch does not write keeps its contents through it. -/
theorem D_keep (V : Valuation τ sig (Elt F)) (r : Ref sig .tc) (h : r ∉ D_W) :
    after D V (Proc.devRef .tc r) = V (Proc.devRef .tc r) :=
  after_of_writes_sub D V D_writes h

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp A_sub op h, List.forall_iff_forall_mem.mp B_sub op h,
      List.forall_iff_forall_mem.mp C_sub op h, List.forall_iff_forall_mem.mp D_sub op h]

theorem ops_fresh : ∀ op ∈ (ops : List (HloOp τ sig (Elt F))), op.fresh = ∅ := by
  intro op h
  simp only [ops, List.mem_append] at h
  rcases h with h | h | h | h
  exacts [A_fresh op h, B_fresh op h, C_fresh op h, D_fresh op h]

/-- The whole line read stretch by stretch. -/
theorem after_ops (V : Valuation τ sig (Elt F)) : after ops V = after D (after C (after B (after A V))) := by
  simp only [ops, after_append]

/-- A buffer no stretch writes keeps its contents through the whole line. -/
theorem ops_keep (V : Valuation τ sig (Elt F)) (r : Ref sig .tc) (hA : r ∉ A_W) (hB : r ∉ B_W) (hC : r ∉ C_W) (hD : r ∉ D_W) :
    after ops V (Proc.devRef .tc r) = V (Proc.devRef .tc r) := by
  rw [after_ops, D_keep _ r hD, C_keep _ r hC, B_keep _ r hB, A_keep _ r hA]

end Cert.ReferenceIdeal.RefRun

end
-- ==== Proof.RefRun.lean ====
/-
  The reference program's run, read back as one pure function of its ten argument arrays.

  The operation list is cut into four stretches (the first layer up to the hidden array and its column means; the
  variance; the normalisation and the cut at zero; the second layer). Each stretch's result is named as a function of
  the arrays the stretch reads, and the whole result is their composition:

      result = outRf (actR (hidR x ei Wl1 Wr1 b1) γ β) ei Wl2 Wr2 b2

  where `hidR` and `outRf` are the two layers (the neighbour sum `aggR ei` divided by the clipped in-degree
  `CR ei`, against the neighbour weight; the node's own row against the root weight; the bias), and `actR`
  normalises each column by its batch mean `muR` and variance `varR` and cuts at zero. Both layers read the
  same edge list, so the same `aggR ei` and `CR ei` serve both.
-/
import proofs.«165321_j893353197863_1_alg».proof.Proof.RefOps
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The stages, as pure functions at the extended reals

Each is the composed term of the operations of one stretch, over the arrays the stretch reads. The two layers test
the source node numbers against an integer zero each spells anew; the stretch-level functions take it as an argument
(`z`), and the functions of the edge list fix it. -/

/-- The source row of the edge list: row 0, as a vector of 800000 node numbers. -/
def srcR (ei : (⟨S2x800000, .i32⟩ : BufTy).Contents (Elt Ideal)) : IVec S800000 32 :=
  shapeCast S800000 (extractStridedSlice S1x800000 ![0, 0] ei slices_S2x800000_S1x800000_0_0) shapeCasts_S1x800000_S800000

/-- The destination row of the edge list: row 1. -/
def dstR (ei : (⟨S2x800000, .i32⟩ : BufTy).Contents (Elt Ideal)) : IVec S800000 32 :=
  shapeCast S800000 (extractStridedSlice S1x800000 ![1, 0] ei slices_S2x800000_S1x800000_1_0) shapeCasts_S1x800000_S800000

/-- The neighbour sum of a node array `X` over source nodes `s` and destination nodes `d`: per edge the source
    node's row of `X` (a node number below `z` counted from the end), added into the destination node's row of
    an array of zeros. -/
def aggSD (s d : IVec S800000 32) (z : IVec S_ 32) (X : FVec Ideal S50000x128 .f32) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 d) (Host.gather gather_S50000x128_S800000x1_S800000x128_1_0_n_n_0_1_1128 X (broadcastInDim S800000x1 ![0] bcast_S800000_S800000x1_0 (select (cmpi .slt s (broadcastInDim S800000 ![] bcast_S_S800000 z)) (addi s (broadcastInDim S800000 ![] bcast_S_S800000 (constantI S_ 32 50000#32))) s)))

/-- The clipped in-degree over destination nodes `d`: per edge a one added at the destination node, and the
    maximum of that count and one. -/
def cntSD (d : IVec S800000 32) : FVec Ideal S50000 .f32 :=
  maximumf (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 d) (broadcastInDim S800000 ![] bcast_S_S800000 (constant (F := Ideal) S_ .f32 0x3F800000#32))) (broadcastInDim S50000 ![] bcast_S_S50000 (constant (F := Ideal) S_ .f32 0x3F800000#32))

/-- The neighbour sum of `X` along the edge list. -/
def aggR (ei : (⟨S2x800000, .i32⟩ : BufTy).Contents (Elt Ideal)) (X : FVec Ideal S50000x128 .f32) : FVec Ideal S50000x128 .f32 :=
  aggSD (srcR ei) (dstR ei) (constantI S_ 32 0#32) X

/-- The clipped in-degree of the edge list. -/
def CR (ei : (⟨S2x800000, .i32⟩ : BufTy).Contents (Elt Ideal)) : FVec Ideal S50000 .f32 := cntSD (dstR ei)

/-- The neighbour mean: the neighbour sum over the clipped in-degree, row by row. -/
def meanR (ei : (⟨S2x800000, .i32⟩ : BufTy).Contents (Elt Ideal)) (X : FVec Ideal S50000x128 .f32) : FVec Ideal S50000x128 .f32 :=
  Host.divf (F := Ideal) (aggR ei X) (broadcastInDim S50000x128 ![0, 1] bcast_S50000x1_S50000x128_0_1 (broadcastInDim S50000x1 ![0] bcast_S50000_S50000x1_0 (CR ei)))

/-- The first layer: the mean against the neighbour weight, plus the node's own row against the root weight, plus
    the bias. -/
def hidR (x : FVec Ideal S50000x128 .f32) (ei : (⟨S2x800000, .i32⟩ : BufTy).Contents (Elt Ideal)) (Wl1 Wr1 : FVec Ideal S128x128 .f32) (b1 : FVec Ideal S128 .f32) : FVec Ideal S50000x128 .f32 :=
  addf (addf (Host.dotGeneral (F := Ideal) dot_S50000x128_S128x128_S50000x128_1_0_0_1_n_n none (meanR ei x) Wl1) (Host.dotGeneral (F := Ideal) dot_S50000x128_S128x128_S50000x128_1_0_0_1_n_n none x Wr1)) (broadcastInDim S50000x128 ![0, 1] bcast_S1x128_S50000x128_0_1 (broadcastInDim S1x128 ![1] bcast_S128_S1x128_1 b1))

/-- The batch mean of each column: the column sum over the node count. -/
def muR (h : FVec Ideal S50000x128 .f32) : FVec Ideal S128 .f32 :=
  Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))

/-- The deviations from the column means (the means computed as a row and spread over the nodes). -/
def devR (h : FVec Ideal S50000x128 .f32) : FVec Ideal S50000x128 .f32 :=
  subf h (broadcastInDim S50000x128 ![0, 1] bcast_S1x128_S50000x128_0_1 (Host.divf (F := Ideal) (broadcastInDim S1x128 ![1] bcast_S128_S1x128_1 (Host.reduceAdd (F := Ideal) h (constant (F := Ideal) S_ .f32 0x00000000#32) reducesTo_S50000x128_S128_d0 h_S_)) (broadcastInDim S1x128 ![] bcast_S_S1x128 (constant (F := Ideal) S_ .f32 0x47435000#32))))

/-- The batch variance of each column: the squared deviations summed over the nodes and divided by `50000 − z`,
    selected against the not-a-number word on `50000 − z > 0`. -/
def varR' (h : FVec Ideal S50000x128 .f32) (z : IVec S_ 32) : FVec Ideal S128 .f32 :=
  select (broadcastInDim S128 ![] bcast_S_S128 (cmpf .ogt (subf (constant (F := Ideal) S_ .f32 0x47435000#32) (sitofp (F := Ideal) .f32 z)) (constant (F := Ideal) S_ .f32 0x00000000#32))) (Host.divf (F := Ideal) (Host.reduceAdd (F := Ideal) (mulf (devR h) (devR h)) (constant (F := Ideal) S_ .f32 0x00000000#32) reducesTo_S50000x128_S128_d0 h_S_) (broadcastInDim S128 ![] bcast_S_S128 (subf (constant (F := Ideal) S_ .f32 0x47435000#32) (sitofp (F := Ideal) .f32 z)))) (broadcastInDim S128 ![] bcast_S_S128 ((constant (F := Ideal) S_ .f32 0x7FC00000#32)))

/-- The batch variance as the program calls it: `z = 0`. -/
def varR (h : FVec Ideal S50000x128 .f32) : FVec Ideal S128 .f32 := varR' h (constantI S_ 32 0#32)

/-- Normalise and cut at zero, from the array, its column means and its column variances. -/
def actR' (h : FVec Ideal S50000x128 .f32) (μ v γ β : FVec Ideal S128 .f32) : FVec Ideal S50000x128 .f32 :=
  maximumf (addf (mulf (mulf (broadcastInDim S50000x128 ![0, 1] bcast_S1x128_S50000x128_0_1 (broadcastInDim S1x128 ![1] bcast_S128_S1x128_1 γ)) (subf h (broadcastInDim S50000x128 ![0, 1] bcast_S1x128_S50000x128_0_1 (broadcastInDim S1x128 ![1] bcast_S128_S1x128_1 μ)))) (broadcastInDim S50000x128 ![0, 1] bcast_S1x128_S50000x128_0_1 (broadcastInDim S1x128 ![1] bcast_S128_S1x128_1 (Host.rsqrt (F := Ideal) (addf v (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 β))) (broadcastInDim S50000x128 ![] bcast_S_S50000x128 (constant (F := Ideal) S_ .f32 0x00000000#32))

/-- Normalise by the array's own batch statistics and cut at zero. -/
def actR (h : FVec Ideal S50000x128 .f32) (γ β : FVec Ideal S128 .f32) : FVec Ideal S50000x128 .f32 := actR' h (muR h) (varR h) γ β

/-- The second layer on an activation `a`, over source and destination nodes. -/
def outRf' (a : FVec Ideal S50000x128 .f32) (s d : IVec S800000 32) (z : IVec S_ 32) (Wl2 Wr2 : FVec Ideal S128x64 .f32) (b2 : FVec Ideal S64 .f32) :
    FVec Ideal S50000x64 .f32 :=
  addf (addf (Host.dotGeneral (F := Ideal) dot_S50000x128_S128x64_S50000x64_1_0_0_1_n_n none (Host.divf (F := Ideal) (aggSD s d z a) (broadcastInDim S50000x128 ![0, 1] bcast_S50000x1_S50000x128_0_1 (broadcastInDim S50000x1 ![0] bcast_S50000_S50000x1_0 (cntSD d)))) Wl2) (Host.dotGeneral (F := Ideal) dot_S50000x128_S128x64_S50000x64_1_0_0_1_n_n none a Wr2)) (broadcastInDim S50000x64 ![0, 1] bcast_S1x64_S50000x64_0_1 (broadcastInDim S1x64 ![1] bcast_S64_S1x64_1 b2))

/-- The second layer along the edge list. -/
def outRf (a : FVec Ideal S50000x128 .f32) (ei : (⟨S2x800000, .i32⟩ : BufTy).Contents (Elt Ideal)) (Wl2 Wr2 : FVec Ideal S128x64 .f32) (b2 : FVec Ideal S64 .f32) : FVec Ideal S50000x64 .f32 :=
  outRf' a (srcR ei) (dstR ei) (constantI S_ 32 0#32) Wl2 Wr2 b2

/-- The second layer is the first layer's shape: mean against the neighbour weight, own row against the root weight, bias. -/
theorem outRf_eq (a : FVec Ideal S50000x128 .f32) (ei : (⟨S2x800000, .i32⟩ : BufTy).Contents (Elt Ideal)) (Wl2 Wr2 : FVec Ideal S128x64 .f32) (b2 : FVec Ideal S64 .f32) :
    outRf a ei Wl2 Wr2 b2
      = addf (addf (Host.dotGeneral (F := Ideal) dot_S50000x128_S128x64_S50000x64_1_0_0_1_n_n none (meanR ei a) Wl2) (Host.dotGeneral (F := Ideal) dot_S50000x128_S128x64_S50000x64_1_0_0_1_n_n none a Wr2)) (broadcastInDim S50000x64 ![0, 1] bcast_S1x64_S50000x64_0_1 (broadcastInDim S1x64 ![1] bcast_S64_S1x64_1 b2)) := rfl

/-- The reference's result as a function of its ten arguments. -/
def result (x : FVec Ideal S50000x128 .f32) (ei : (⟨S2x800000, .i32⟩ : BufTy).Contents (Elt Ideal)) (Wl1 Wr1 : FVec Ideal S128x128 .f32) (b1 γ β : FVec Ideal S128 .f32)
    (Wl2 Wr2 : FVec Ideal S128x64 .f32) (b2 : FVec Ideal S64 .f32) : FVec Ideal S50000x64 .f32 :=
  outRf (actR (hidR x ei Wl1 Wr1 b1) γ β) ei Wl2 Wr2 b2

/-! ## What each stretch leaves in the buffers later stretches read -/

set_option maxRecDepth 8192 in
set_option maxHeartbeats 4000000 in
theorem A_v1 (V : Valuation τ sig (Elt Ideal)) :
    after (A (F := Ideal)) V (Proc.devRef .tc main_v1) = srcR (V (Proc.devRef .tc main_arg1)) := by
  simp only [A]
  after_results_simp
  rfl

set_option maxRecDepth 8192 in
set_option maxHeartbeats 4000000 in
theorem A_v3 (V : Valuation τ sig (Elt Ideal)) :
    after (A (F := Ideal)) V (Proc.devRef .tc main_v3) = dstR (V (Proc.devRef .tc main_arg1)) := by
  simp only [A]
  after_results_simp
  rfl

set_option maxRecDepth 8192 in
set_option maxHeartbeats 4000000 in
theorem A_c6 (V : Valuation τ sig (Elt Ideal)) :
    after (A (F := Ideal)) V (Proc.devRef .tc main_c_6) = (constantI S_ 32 0#32 : IVec S_ 32) := by
  simp only [A]
  after_results_simp

set_option maxRecDepth 8192 in
set_option maxHeartbeats 4000000 in
theorem A_v28 (V : Valuation τ sig (Elt Ideal)) :
    after (A (F := Ideal)) V (Proc.devRef .tc main_v28) = hidR (V (Proc.devRef .tc main_arg0)) (V (Proc.devRef .tc main_arg1)) (V (Proc.devRef .tc main_arg2)) (V (Proc.devRef .tc main_arg3)) (V (Proc.devRef .tc main_arg4)) := by
  simp only [A]
  after_results_simp
  rfl

set_option maxRecDepth 8192 in
set_option maxHeartbeats 4000000 in
theorem A_v31 (V : Valuation τ sig (Elt Ideal)) :
    after (A (F := Ideal)) V (Proc.devRef .tc main_v31) = muR (hidR (V (Proc.devRef .tc main_arg0)) (V (Proc.devRef .tc main_arg1)) (V (Proc.devRef .tc main_arg2)) (V (Proc.devRef .tc main_arg3)) (V (Proc.devRef .tc main_arg4))) := by
  simp only [A]
  after_results_simp
  rfl

set_option maxRecDepth 8192 in
set_option maxHeartbeats 4000000 in
theorem B_v32 (V : Valuation τ sig (Elt Ideal)) :
    after (B (F := Ideal)) V (Proc.devRef .tc main_v32) = varR' (V (Proc.devRef .tc main_v28)) (V (Proc.devRef .tc main_c_6)) := by
  simp only [B]
  after_results_simp
  rfl

set_option maxRecDepth 8192 in
set_option maxHeartbeats 4000000 in
theorem C_v48 (V : Valuation τ sig (Elt Ideal)) :
    after (C (F := Ideal)) V (Proc.devRef .tc main_v48) = actR' (V (Proc.devRef .tc main_v28)) (V (Proc.devRef .tc main_v31)) (V (Proc.devRef .tc main_v32)) (V (Proc.devRef .tc main_arg5)) (V (Proc.devRef .tc main_arg6)) := by
  simp only [C]
  after_results_simp
  rfl

set_option maxRecDepth 8192 in
set_option maxHeartbeats 4000000 in
theorem C_c8 (V : Valuation τ sig (Elt Ideal)) :
    after (C (F := Ideal)) V (Proc.devRef .tc main_c_8) = (constantI S_ 32 0#32 : IVec S_ 32) := by
  simp only [C]
  after_results_simp

set_option maxRecDepth 8192 in
set_option maxHeartbeats 4000000 in
theorem D_v73 (V : Valuation τ sig (Elt Ideal)) :
    after (D (F := Ideal)) V (Proc.devRef .tc main_v73) = outRf' (V (Proc.devRef .tc main_v48)) (V (Proc.devRef .tc main_v1)) (V (Proc.devRef .tc main_v3)) (V (Proc.devRef .tc main_c_8)) (V (Proc.devRef .tc main_arg7)) (V (Proc.devRef .tc main_arg8)) (V (Proc.devRef .tc main_arg9)) := by
  simp only [D]
  after_results_simp
  rfl

/-! ## The whole line -/

set_option maxRecDepth 8192 in
/-- After the whole line the result buffer holds `result` of the argument buffers' contents. -/
theorem ops_v73 (V : Valuation τ sig (Elt Ideal)) :
    after (ops (F := Ideal)) V (Proc.devRef .tc main_v73)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, D_v73]
  rw [C_v48, C_c8, C_keep _ main_v1 (by decide), C_keep _ main_v3 (by decide), C_keep _ main_arg7 (by decide), C_keep _ main_arg8 (by decide), C_keep _ main_arg9 (by decide)]
  rw [B_v32, B_keep _ main_v28 (by decide), B_keep _ main_v31 (by decide), B_keep _ main_v1 (by decide), B_keep _ main_v3 (by decide), B_keep _ main_arg5 (by decide), B_keep _ main_arg6 (by decide), B_keep _ main_arg7 (by decide), B_keep _ main_arg8 (by decide), B_keep _ main_arg9 (by decide)]
  rw [A_v28, A_v31, A_c6, A_v1, A_v3, A_keep _ main_arg5 (by decide), A_keep _ main_arg6 (by decide), A_keep _ main_arg7 (by decide), A_keep _ main_arg8 (by decide), A_keep _ main_arg9 (by decide)]
  rfl

/-- On every device, from any memory with zero counters: every weakly fair execution of @main terminates with the result
    buffer at `result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v73).trans (ops_v73 (launchContents m c)),
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.KGlue.lean ====
/-
  The two programs' neighbour sums and clipped in-degrees are the same functions.

  The idealized kernel's host stretch and the reference spell the neighbour sum (gather the source rows, scatter-add them
  at the destination rows into zeros) and the clipped in-degree (scatter-add ones at the destination rows, maximum with
  one) with the same operations over the same shapes; only the names of the dimension records and shape facts differ,
  one set per program, with equal contents.
-/
import proofs.«165321_j893353197863_1_alg».proof.Proof.KHost0
import proofs.«165321_j893353197863_1_alg».proof.Proof.RefRun

noncomputable section

namespace Cert.KGlue

open Idealize.ShloMosaic

/-- The kernel's neighbour sum is the reference's. -/
theorem aggK_eq (ei : (⟨Cert.KernelIdeal.S2x800000, .i32⟩ : BufTy).Contents (Elt Ideal)) :
    Cert.KernelIdeal.KHost.aggK ei = Cert.ReferenceIdeal.RefRun.aggR ei := by
  funext X
  unfold Cert.KernelIdeal.KHost.aggK Cert.KernelIdeal.KHost.aggSD Cert.KernelIdeal.KHost.srcK Cert.KernelIdeal.KHost.dstK
    Cert.ReferenceIdeal.RefRun.aggR Cert.ReferenceIdeal.RefRun.aggSD Cert.ReferenceIdeal.RefRun.srcR Cert.ReferenceIdeal.RefRun.dstR
  rfl

/-- The kernel's clipped in-degree is the reference's. -/
theorem CK_eq (ei : (⟨Cert.KernelIdeal.S2x800000, .i32⟩ : BufTy).Contents (Elt Ideal)) :
    Cert.KernelIdeal.KHost.CK ei = Cert.ReferenceIdeal.RefRun.CR ei := by
  unfold Cert.KernelIdeal.KHost.CK Cert.KernelIdeal.KHost.cntD Cert.KernelIdeal.KHost.dstK
    Cert.ReferenceIdeal.RefRun.CR Cert.ReferenceIdeal.RefRun.cntSD Cert.ReferenceIdeal.RefRun.dstR
  rfl

end Cert.KGlue

end
-- ==== Proof.SageConsts.lean ====
/-
  The four float words the two programs spell, as the extended reals they denote: 0, 1, the node count 50000, and the
  normalisation's ε (the binary32 number nearest 1e-5, a positive dyadic rational).
-/
import Idealize.ShloMosaic.PureOps.Ideal
import Idealize.ShloMosaic.PureOps.Ideal.Laws
import proofs.«165321_j893353197863_1_alg».proof.Proof.Spec

noncomputable section

namespace Cert.SageSpec

open Idealize.ShloMosaic

theorem zero32_eq : zero32 = 0 := Ideal.ofBits_zero_f32

theorem one32_eq : one32 = 1 := by
  simp [one32, Ideal.ofBits, Ideal.ieee, -EReal.coe_mul]; norm_num

theorem n32_eq : n32 = ((50000 : ℝ) : EReal) := by
  simp [n32, Ideal.ofBits, Ideal.ieee, -EReal.coe_mul]; norm_num

theorem eps32_eq : eps32 = ((10995116 / 1099511627776 : ℝ) : EReal) := by
  simp [eps32, Ideal.ofBits, Ideal.ieee, -EReal.coe_mul]; norm_num

theorem eps32_pos : ∃ e : ℝ, 0 < e ∧ eps32 = (e : EReal) := ⟨_, by norm_num, eps32_eq⟩

end Cert.SageSpec

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«165321_j893353197863_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefValue.lean ====
/-
  The reference's result entry by entry: it is the quotient / centred spelling of the two-layer network.

  Each array operation of the reference is read at an index: the pointwise ones are the extended reals' own
  operations on the entries; a vector laid along the rows (or a column along the columns) reads the vector's
  entry; a column sum from the zero word is `0 + ∑ₙ`; a product of a 50000 × 128 array with a weight is
  `∑ₖ l(n,k) · r(k,q)`. The variance's divisor `50000 − 0` is the node count and its guard `50000 − 0 > 0`
  holds, so the select takes the quotient and the not-a-number word is never read. The neighbour sum `aggR ei`
  and the clipped in-degree `CR ei` stay closed throughout: both sides carry them as the same terms.
-/
import proofs.«165321_j893353197863_1_alg».proof.Proof.RefRun
import proofs.«165321_j893353197863_1_alg».proof.Proof.Spec
import proofs.«165321_j893353197863_1_alg».proof.Proof.SageConsts
import proofs.«165321_j893353197863_1_alg».proof.Proof.LibDotColsHost
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Layout operations at an index -/

section layout
variable {α : Type}

/-- A one-row array laid down the 50000 rows reads its row. -/
theorem rows_of_row_apply (w : S1x128.Idx → α) (n : Fin 50000) (k : Fin 128) :
    broadcastInDim S50000x128 ![0, 1] bcast_S1x128_S50000x128_0_1 w (ix2 n k) = w (ix2 (0 : Fin 1) k) :=
  broadcastInDim_apply _ _ _ (ix2 n k) (ix2 (0 : Fin 1) k) (fun a => by
    match a with
    | ⟨0, _⟩ => rfl
    | ⟨1, _⟩ => rfl)

/-- A vector of 128 as a one-row array reads the vector. -/
theorem row_of_vec_apply (v : S128.Idx → α) (k : Fin 128) :
    broadcastInDim S1x128 ![1] bcast_S128_S1x128_1 v (ix2 (0 : Fin 1) k) = v (ix1 k) :=
  broadcastInDim_apply _ _ _ (ix2 (0 : Fin 1) k) (ix1 k) (fun a => by
    match a with
    | ⟨0, _⟩ => rfl)

/-- A vector of 128 laid along every row of a 50000 × 128 array. -/
theorem row128_apply (v : S128.Idx → α) (n : Fin 50000) (k : Fin 128) :
    broadcastInDim S50000x128 ![0, 1] bcast_S1x128_S50000x128_0_1 (broadcastInDim S1x128 ![1] bcast_S128_S1x128_1 v) (ix2 n k) = v (ix1 k) :=
  (rows_of_row_apply _ n k).trans (row_of_vec_apply v k)

/-- A vector of 64 laid along every row of a 50000 × 64 array. -/
theorem row64_apply (v : S64.Idx → α) (n : Fin 50000) (q : Fin 64) :
    broadcastInDim S50000x64 ![0, 1] bcast_S1x64_S50000x64_0_1 (broadcastInDim S1x64 ![1] bcast_S64_S1x64_1 v) (ix2 n q) = v (ix1 q) :=
  (broadcastInDim_apply _ _ _ (ix2 n q) (ix2 (0 : Fin 1) q) (fun a => by
    match a with
    | ⟨0, _⟩ => rfl
    | ⟨1, _⟩ => rfl)).trans
  (broadcastInDim_apply _ _ _ (ix2 (0 : Fin 1) q) (ix1 q) (fun a => by
    match a with
    | ⟨0, _⟩ => rfl))

/-- A vector of 50000 laid along every column of a 50000 × 128 array. -/
theorem col_apply (c : S50000.Idx → α) (n : Fin 50000) (k : Fin 128) :
    broadcastInDim S50000x128 ![0, 1] bcast_S50000x1_S50000x128_0_1 (broadcastInDim S50000x1 ![0] bcast_S50000_S50000x1_0 c) (ix2 n k) = c (ix1 n) :=
  (broadcastInDim_apply _ _ _ (ix2 n k) (ix2 n (0 : Fin 1)) (fun a => by
    match a with
    | ⟨0, _⟩ => rfl
    | ⟨1, _⟩ => rfl)).trans
  (broadcastInDim_apply _ _ _ (ix2 n (0 : Fin 1)) (ix1 n) (fun a => by
    match a with
    | ⟨0, _⟩ => rfl))

end layout

/-! ## Column sums and products at an index -/

/-- The column sum from the zero word. -/
theorem colsum_apply (h : FVec Ideal S50000x128 .f32) (j : Fin 128) :
    Host.reduceAdd (F := Ideal) h (constant (F := Ideal) S_ .f32 0x00000000#32) reducesTo_S50000x128_S128_d0 h_S_ (ix1 j)
      = ∑ n : Fin 50000, h (ix2 n j) := by
  have hr : S50000x128.Reduces [0] S128 := by decide
  rw [hostReduceAdd_apply, Ideal.hostReduceAdd_single _ hr, constant_apply, Ideal.ofBits_zero_f32, zero_add]
  refine Finset.sum_congr rfl fun n _ => congrArg h ?_
  funext a
  match a with
  | ⟨0, _⟩ => rfl
  | ⟨1, _⟩ => rfl

theorem dot128_eq : dot_S50000x128_S128x128_S50000x128_1_0_0_1_n_n = DotDims.plain 50000 128 128 := rfl
theorem dot64_eq : dot_S50000x128_S128x64_S50000x64_1_0_0_1_n_n = DotDims.plain 50000 128 64 := rfl

/-- The product with a 128 × 128 weight. -/
theorem dot128_apply (l : FVec Ideal S50000x128 .f32) (r : FVec Ideal S128x128 .f32) (n : Fin 50000) (q : Fin 128) :
    Host.dotGeneral (F := Ideal) dot_S50000x128_S128x128_S50000x128_1_0_0_1_n_n none l r (ix2 n q) = ∑ k : Fin 128, l (ix2 n k) * r (ix2 k q) :=
  Cert.Lib.DotColsHost.dotGeneral_cols_apply _ dot128_eq none .single l r n q

/-- The product with a 128 × 64 weight. -/
theorem dot64_apply (l : FVec Ideal S50000x128 .f32) (r : FVec Ideal S128x64 .f32) (n : Fin 50000) (q : Fin 64) :
    Host.dotGeneral (F := Ideal) dot_S50000x128_S128x64_S50000x64_1_0_0_1_n_n none l r (ix2 n q) = ∑ k : Fin 128, l (ix2 n k) * r (ix2 k q) :=
  Cert.Lib.DotColsHost.dotGeneral_cols_apply _ dot64_eq none .single l r n q

/-- A dense combine of width 128 at an entry. -/
theorem dense128_apply (a x : FVec Ideal S50000x128 .f32) (Wl Wr : FVec Ideal S128x128 .f32) (b : FVec Ideal S128 .f32)
    (n : Fin 50000) (j : Fin 128) :
    addf (addf (Host.dotGeneral (F := Ideal) dot_S50000x128_S128x128_S50000x128_1_0_0_1_n_n none a Wl) (Host.dotGeneral (F := Ideal) dot_S50000x128_S128x128_S50000x128_1_0_0_1_n_n none x Wr)) (broadcastInDim S50000x128 ![0, 1] bcast_S1x128_S50000x128_0_1 (broadcastInDim S1x128 ![1] bcast_S128_S1x128_1 b)) (ix2 n j)
      = (∑ k : Fin 128, a (ix2 n k) * Wl (ix2 k j)) + (∑ k : Fin 128, x (ix2 n k) * Wr (ix2 k j)) + b (ix1 j) := by
  rw [addf_apply, addf_apply, dot128_apply, dot128_apply, row128_apply]

/-- A dense combine of width 64 at an entry. -/
theorem dense64_apply (a x : FVec Ideal S50000x128 .f32) (Wl Wr : FVec Ideal S128x64 .f32) (b : FVec Ideal S64 .f32)
    (n : Fin 50000) (q : Fin 64) :
    addf (addf (Host.dotGeneral (F := Ideal) dot_S50000x128_S128x64_S50000x64_1_0_0_1_n_n none a Wl) (Host.dotGeneral (F := Ideal) dot_S50000x128_S128x64_S50000x64_1_0_0_1_n_n none x Wr)) (broadcastInDim S50000x64 ![0, 1] bcast_S1x64_S50000x64_0_1 (broadcastInDim S1x64 ![1] bcast_S64_S1x64_1 b)) (ix2 n q)
      = (∑ k : Fin 128, a (ix2 n k) * Wl (ix2 k q)) + (∑ k : Fin 128, x (ix2 n k) * Wr (ix2 k q)) + b (ix1 q) := by
  rw [addf_apply, addf_apply, dot64_apply, dot64_apply, row64_apply]

/-! ## The stages at an entry -/

/-- A table's entry is the array's. -/
theorem tab_apply {a b : Nat} (X : SageSpec.Mat a b) (n : Fin a) (k : Fin b) : SageSpec.tab X n k = X (ix2 n k) := rfl

/-- The host's reciprocal square root at an index. -/
theorem hostRsqrt_apply {s : Shape} {φ : FTy} (x : FVec Ideal s φ) (i : s.Idx) : Host.rsqrt x i = Ideal.rsqrt (x i) := rfl

/-- The neighbour mean: the neighbour sum over the clipped in-degree of the row's node. -/
theorem meanR_apply (ei : (⟨S2x800000, .i32⟩ : BufTy).Contents (Elt Ideal)) (X : FVec Ideal S50000x128 .f32) (n : Fin 50000) (k : Fin 128) :
    meanR ei X (ix2 n k) = Ideal.div (aggR ei X (ix2 n k)) (CR ei (ix1 n)) := by
  unfold meanR
  rw [hostDivf_apply, col_apply]

/-- The first layer is the specification's, in the quotient spelling. -/
theorem hidR_apply (x : FVec Ideal S50000x128 .f32) (ei : (⟨S2x800000, .i32⟩ : BufTy).Contents (Elt Ideal))
    (Wl1 Wr1 : FVec Ideal S128x128 .f32) (b1 : FVec Ideal S128 .f32) (n : Fin 50000) (j : Fin 128) :
    hidR x ei Wl1 Wr1 b1 (ix2 n j) = SageSpec.hidR (aggR ei) (CR ei) x Wl1 Wr1 b1 n j := by
  unfold hidR
  rw [dense128_apply]
  simp only [meanR_apply]
  simp only [SageSpec.hidR, SageSpec.dense, SageSpec.meanQ, SageSpec.tab]

theorem hid_tab (x : FVec Ideal S50000x128 .f32) (ei : (⟨S2x800000, .i32⟩ : BufTy).Contents (Elt Ideal))
    (Wl1 Wr1 : FVec Ideal S128x128 .f32) (b1 : FVec Ideal S128 .f32) :
    SageSpec.tab (a := 50000) (b := 128) (hidR x ei Wl1 Wr1 b1) = SageSpec.hidR (aggR ei) (CR ei) x Wl1 Wr1 b1 := by
  funext n j
  rw [tab_apply]
  exact hidR_apply x ei Wl1 Wr1 b1 n j

/-- The batch mean of a column. -/
theorem muR_apply (h : FVec Ideal S50000x128 .f32) (j : Fin 128) :
    muR h (ix1 j) = SageSpec.mu (SageSpec.tab (a := 50000) (b := 128) h) j := by
  unfold muR
  rw [hostDivf_apply, colsum_apply, broadcastInDim_scalar_apply, constant_apply]
  simp only [SageSpec.mu, SageSpec.colSum, SageSpec.tab, SageSpec.n32]

/-- A deviation from the column mean. -/
theorem devR_apply (h : FVec Ideal S50000x128 .f32) (n : Fin 50000) (j : Fin 128) :
    devR h (ix2 n j) = h (ix2 n j) - SageSpec.mu (SageSpec.tab (a := 50000) (b := 128) h) j := by
  unfold devR
  rw [subf_apply, rows_of_row_apply, hostDivf_apply, row_of_vec_apply, colsum_apply, broadcastInDim_scalar_apply, constant_apply]
  simp only [SageSpec.mu, SageSpec.colSum, SageSpec.tab, SageSpec.n32]

/-- The variance's divisor `50000 − 0` is the node count. -/
theorem denom_eq :
    (subf (constant (F := Ideal) S_ .f32 0x47435000#32) (sitofp (F := Ideal) .f32 (constantI S_ 32 0#32))) ix0 = SageSpec.n32 := by
  show Ideal.ofBits .f32 0x47435000#32 - (((0#32 : BitVec 32).toInt : ℝ) : EReal) = SageSpec.n32
  simp

/-- The variance's guard `50000 − 0 > 0` holds. -/
theorem guard_eq : Ideal.cmp .ogt SageSpec.n32 (Ideal.ofBits .f32 0x00000000#32) = 1#1 := by
  rw [SageSpec.n32_eq, Ideal.ofBits_zero_f32]
  simp [Ideal.cmp]

/-- The batch variance of a column: the mean of the squared deviations. -/
theorem varR_apply (h : FVec Ideal S50000x128 .f32) (j : Fin 128) :
    varR h (ix1 j) = SageSpec.varR (SageSpec.tab (a := 50000) (b := 128) h) j := by
  unfold varR varR'
  rw [select_apply, broadcastInDim_scalar_apply, cmpf_apply, denom_eq, constant_apply, Ideal.cmpf_def, guard_eq, select_one,
    hostDivf_apply, colsum_apply, broadcastInDim_scalar_apply, denom_eq]
  simp only [mulf_apply, devR_apply]
  simp only [SageSpec.varR, SageSpec.tab]

/-- Normalise and cut at zero, entry by entry. -/
theorem actR_apply (h : FVec Ideal S50000x128 .f32) (γ β : FVec Ideal S128 .f32) (n : Fin 50000) (j : Fin 128) :
    actR h γ β (ix2 n j) = SageSpec.actR (SageSpec.tab (a := 50000) (b := 128) h) γ β n j := by
  unfold actR actR'
  rw [maximumf_apply, addf_apply, mulf_apply, mulf_apply, subf_apply, row128_apply, row128_apply, row128_apply, row128_apply,
    hostRsqrt_apply, addf_apply, broadcastInDim_scalar_apply, broadcastInDim_scalar_apply, constant_apply, constant_apply,
    muR_apply, varR_apply]
  simp only [SageSpec.actR, SageSpec.tab, SageSpec.eps32, SageSpec.zero32]

theorem act_tab (h : FVec Ideal S50000x128 .f32) (γ β : FVec Ideal S128 .f32) :
    SageSpec.tab (a := 50000) (b := 128) (actR h γ β) = SageSpec.actR (SageSpec.tab (a := 50000) (b := 128) h) γ β := by
  funext n j
  rw [tab_apply]
  exact actR_apply h γ β n j

/-- An array is the table of its entries. -/
theorem mat_tab {a b : Nat} (X : SageSpec.Mat a b) : SageSpec.mat (SageSpec.tab X) = X :=
  funext fun i => (congrArg X (eq_ix2 i)).symm

/-- The second layer on an activation whose table is `T`. -/
theorem outRf_apply (a : FVec Ideal S50000x128 .f32) (T : SageSpec.Tab 50000 128) (hT : SageSpec.tab (a := 50000) (b := 128) a = T)
    (ei : (⟨S2x800000, .i32⟩ : BufTy).Contents (Elt Ideal)) (Wl2 Wr2 : FVec Ideal S128x64 .f32) (b2 : FVec Ideal S64 .f32)
    (n : Fin 50000) (q : Fin 64) :
    outRf a ei Wl2 Wr2 b2 (ix2 n q)
      = SageSpec.dense (SageSpec.meanQ (aggR ei) (CR ei) (SageSpec.mat T)) T Wl2 Wr2 b2 n q := by
  subst hT
  rw [mat_tab, outRf_eq, dense64_apply]
  simp only [meanR_apply]
  simp only [SageSpec.dense, SageSpec.meanQ, SageSpec.tab]

/-! ## The whole result -/

/-- The reference's result is the specification's network in the quotient / centred spelling, over the reference's own
    neighbour sum and clipped in-degree. -/
theorem result_eq (x : FVec Ideal S50000x128 .f32) (ei : (⟨S2x800000, .i32⟩ : BufTy).Contents (Elt Ideal))
    (Wl1 Wr1 : FVec Ideal S128x128 .f32) (b1 γ β : FVec Ideal S128 .f32) (Wl2 Wr2 : FVec Ideal S128x64 .f32) (b2 : FVec Ideal S64 .f32) :
    result x ei Wl1 Wr1 b1 γ β Wl2 Wr2 b2
      = SageSpec.mat (SageSpec.outR (aggR ei) (CR ei) x Wl1 Wr1 b1 γ β Wl2 Wr2 b2) := by
  funext i
  obtain ⟨n, q, rfl⟩ : ∃ (n : Fin 50000) (q : Fin 64), i = ix2 n q := ⟨i 0, i 1, eq_ix2 i⟩
  rw [SageSpec.mat_ix2]
  unfold result SageSpec.outR
  exact outRf_apply _ _ ((act_tab _ γ β).trans (congrArg (fun H => SageSpec.actR H γ β) (hid_tab x ei Wl1 Wr1 b1))) ei Wl2 Wr2 b2 n q

end Cert.ReferenceIdeal.RefValue

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.RefGlue.lean ====
/-
  Two facts about the reference's neighbour sum and clipped in-degree that the comparison of the two spellings needs.

  The neighbour sum of a REAL array is real: at (n, o) it is the zero array's entry, which is 0, plus a finite sum over
  the edges whose every term is either an entry of the array (the gathered source row's, whatever row the clamped node
  number names) or 0. The clipped in-degree is a maximum with 1, so it is at least 1 and never 0.
-/
import proofs.«165321_j893353197863_1_alg».proof.Proof.RefRun
import proofs.«165321_j893353197863_1_alg».proof.Proof.LibRealSums
import proofs.«165321_j893353197863_1_alg».proof.Proof.LibScatterRows
import proofs.«165321_j893353197863_1_alg».proof.Proof.LibSegments
import Idealize.ShloMosaic.Lib.IdealHost

noncomputable section

open scoped BigOperators

namespace Cert.ReferenceIdeal.RefGlue

open Cert.ReferenceIdeal Cert.ReferenceIdeal.Gen Cert.ReferenceIdeal.RefRun Idealize.ShloMosaic Idealize.ShloMosaic.ValueIdx
open Cert.Lib.RealSums

/-- The neighbour sum of an array of reals is an array of reals. -/
theorem aggR_real (ei : (⟨S2x800000, .i32⟩ : BufTy).Contents (Elt Ideal)) (X : FVec Ideal S50000x128 .f32) (hX : ∀ i, Fin' (X i)) :
    ∀ i, Fin' (aggR ei X i) := by
  intro i
  obtain ⟨n, o, rfl⟩ : ∃ (n : Fin 50000) (o : Fin 128), i = ix2 n o := ⟨i 0, i 1, eq_ix2 i⟩
  unfold aggR aggSD
  rw [ScatterRows.scatterAdd_rows2_apply_of_dims (N := 50000) (E := 800000) (C := 128) scatter_S50000x128_S800000x1_S800000x128_1_0_0_1 rfl rfl rfl rfl]
  refine fin'_add ?_ (fin'_sum _ _ fun e => ?_)
  · rw [broadcastInDim_scalar_apply, constant_apply, Ideal.ofBits_zero_f32]
    exact fin'_zero
  · split_ifs
    · rw [Segments.gather_rows_apply_of_dims (N := 50000) (E := 800000) (C := 128) (by decide) gather_S50000x128_S800000x1_S800000x128_1_0_n_n_0_1_1128 rfl rfl rfl rfl rfl rfl rfl]
      exact hX _
    · exact fin'_zero

/-- The clipped in-degree is never zero: it is a maximum with one. -/
theorem CR_ne_zero (ei : (⟨S2x800000, .i32⟩ : BufTy).Contents (Elt Ideal)) (n : Fin 50000) : CR ei (ix1 n) ≠ 0 := by
  unfold CR cntSD
  rw [maximumf_apply, broadcastInDim_scalar_apply, constant_apply, Ideal.ofBits_one_f32]
  exact ne_of_gt (lt_of_lt_of_le zero_lt_one (le_max_right _ _))

end Cert.ReferenceIdeal.RefGlue

end
-- ==== Proof.PreReal.lean ====
/-
  The precondition, decoded: every entry of the float arguments is a real number.

  `finite_inputs` is the conjunction, over the nine float arguments, of "every entry's absolute value is below +∞"
  (the integer edge list is not constrained). A conjunction of bits that is 1 has every conjunct 1; an all-reduction by
  `and` that is 1 had a 1 at every entry; and `|x| < +∞` on the extended reals says `x` is neither infinity.
-/
import proofs.«165321_j893353197863_1_alg».proof.Defs
import proofs.«165321_j893353197863_1_alg».proof.Proof.LibRealSums
import Idealize.ShloMosaic.Lib.ReduceAll
import Idealize.ShloMosaic.Lib.IdealHost

noncomputable section

namespace Cert.PreReal

open Idealize.ShloMosaic Idealize.ShloMosaic.ValueIdx Idealize.SL.Sem Cert.Lib.RealSums

/-- The rank-0 shape has one index. -/
instance : Subsingleton (⟨0, ![]⟩ : Shape).Idx := ⟨fun _ _ => funext fun d => d.elim0⟩

/-- An extended real whose absolute value is below the +∞ word is a real. -/
theorem fin'_of_abs_lt_inf (x : EReal)
    (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨ne_of_lt hlt.1, fun hb => ?_⟩
  rw [hb] at hlt
  simp at hlt

/-- An array all of whose entries pass `|x| < +∞` (the all-reduction by `and` from 1 is 1) is an array of reals. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) :
    ∀ i, Fin' (x i) := by
  intro i
  have h1 := Host.reduce_andi_all _ _ hr hu ix0 e i
  rw [cmpf_apply, broadcastInDim_scalar_apply, constant_apply] at h1
  exact fin'_of_abs_lt_inf (x i) h1

/-- Under the precondition every entry of the node features, of the first layer's two weights and bias, and of the
    normalisation's scale and shift is a real. -/
theorem real_inputs [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, Fin' (((m ((c.tc : Thread Cert.KernelIdeal.nD Cert.KernelIdeal.τ).loc Cert.KernelIdeal.main_arg0)) : FVec Ideal Cert.KernelIdeal.S50000x128 .f32) i))
    ∧ (∀ i, Fin' (((m ((c.tc : Thread Cert.KernelIdeal.nD Cert.KernelIdeal.τ).loc Cert.KernelIdeal.main_arg2)) : FVec Ideal Cert.KernelIdeal.S128x128 .f32) i))
    ∧ (∀ i, Fin' (((m ((c.tc : Thread Cert.KernelIdeal.nD Cert.KernelIdeal.τ).loc Cert.KernelIdeal.main_arg3)) : FVec Ideal Cert.KernelIdeal.S128x128 .f32) i))
    ∧ (∀ i, Fin' (((m ((c.tc : Thread Cert.KernelIdeal.nD Cert.KernelIdeal.τ).loc Cert.KernelIdeal.main_arg4)) : FVec Ideal Cert.KernelIdeal.S128 .f32) i))
    ∧ (∀ i, Fin' (((m ((c.tc : Thread Cert.KernelIdeal.nD Cert.KernelIdeal.τ).loc Cert.KernelIdeal.main_arg5)) : FVec Ideal Cert.KernelIdeal.S128 .f32) i))
    ∧ (∀ i, Fin' (((m ((c.tc : Thread Cert.KernelIdeal.nD Cert.KernelIdeal.τ).loc Cert.KernelIdeal.main_arg6)) : FVec Ideal Cert.KernelIdeal.S128 .f32) i)) := by
  have h0 := congrFun (h c) ix0
  dsimp only [Cert.Pre_finite_inputs.fn, Cert.Pre_finite_inputs.fn_part1, Cert.Pre_finite_inputs.fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ _ e0, real_of_all _ _ _ _ e2, real_of_all _ _ _ _ e3, real_of_all _ _ _ _ e4,
    real_of_all _ _ _ _ e5, real_of_all _ _ _ _ e6⟩

end Cert.PreReal

end
-- ==== Proof.Bridge.lean ====
/-
  The two spellings of the network are one function of real inputs.

  * Off zero a quotient is the product with the inverse, and `1 / C = C⁻¹`: the neighbour mean as a product with the
    reciprocal IS the quotient, for every extended real numerator (no finiteness), as soon as `C ≠ 0`.
  * The hidden array is then the same table `h`, and it is REAL as soon as the inputs are and the neighbour sum of a real
    array is real: the inverse of any extended real is a real, so the mean is real, and finite sums of products of reals
    are real.
  * For a real column with N = 50000 entries, (Σ h²)/N − ((Σ h)/N)² = (Σ (h − μ)²)/N  (expand the square; Σ_n μ² = N·μ²):
    the two variances agree, and they are ≥ 0, so var + ε > 0 and its inverse square root is a real ρ.
  * Over the reals h·(γρ) + (β − μ·(γρ)) = γ·(h − μ)·ρ + β.
  * The second layer applies the same mean and the same dense combine to the same activations.
-/
import Mathlib.Tactic.Ring
import Mathlib.Tactic.FieldSimp
import Mathlib.Tactic.Linarith
import Mathlib.Tactic.NormNum
import Mathlib.Algebra.BigOperators.Fin
import proofs.«165321_j893353197863_1_alg».proof.Proof.Spec
import proofs.«165321_j893353197863_1_alg».proof.Proof.SageConsts
import proofs.«165321_j893353197863_1_alg».proof.Proof.LibRealSums

noncomputable section

open scoped BigOperators

namespace Cert.SageSpec

open Idealize.ShloMosaic Idealize.ShloMosaic.ValueIdx Cert.Lib.RealSums

/-- Off zero a quotient is the product with the inverse. -/
theorem div_of_ne (a : EReal) {c : EReal} (hc : c ≠ 0) : Ideal.div a c = a * c⁻¹ := by
  rw [Ideal.div, if_neg hc]

theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

theorem fin'_div {x : EReal} (hx : Fin' x) {c : EReal} (hc : c ≠ 0) : Fin' (Ideal.div x c) := by
  rw [div_of_ne x hc]; exact fin'_mul hx (fin'_inv c)

/-- The mean as a product with the reciprocal is the mean as a quotient. -/
theorem meanP_eq_meanQ (agg : Mat 50000 128 → Mat 50000 128) (C : Vct 50000) (hC : ∀ n : Fin 50000, C (ix1 n) ≠ 0)
    (X : Mat 50000 128) : meanP agg C X = meanQ agg C X := by
  funext n k
  show agg X (ix2 n k) * Ideal.div one32 (C (ix1 n)) = Ideal.div (agg X (ix2 n k)) (C (ix1 n))
  rw [div_of_ne _ (hC n), div_of_ne _ (hC n), one32_eq, one_mul]

/-- The dense combine of real tables, weights and bias is real. -/
theorem fin'_dense {H : Nat} (M X : Tab 50000 128) (WL WR : Mat 128 H) (b : Vct H)
    (hM : ∀ n k, Fin' (M n k)) (hX : ∀ n k, Fin' (X n k)) (hWL : ∀ i, Fin' (WL i)) (hWR : ∀ i, Fin' (WR i))
    (hb : ∀ i, Fin' (b i)) (n : Fin 50000) (q : Fin H) : Fin' (dense M X WL WR b n q) := by
  show Fin' ((∑ k : Fin 128, M n k * WL (ix2 k q)) + (∑ k : Fin 128, X n k * WR (ix2 k q)) + b (ix1 q))
  exact fin'_add (fin'_add (fin'_sum _ _ fun k => fin'_mul (hM n k) (hWL _))
    (fin'_sum _ _ fun k => fin'_mul (hX n k) (hWR _))) (hb _)

/-- The variance identity over the reals, for N entries. -/
theorem real_var (N : ℕ) (hN : (N : ℝ) ≠ 0) (f : Fin N → ℝ) :
    (∑ n, f n * f n) * (N : ℝ)⁻¹ - ((∑ n, f n) * (N : ℝ)⁻¹) * ((∑ n, f n) * (N : ℝ)⁻¹)
      = (∑ n, (f n - (∑ n, f n) * (N : ℝ)⁻¹) * (f n - (∑ n, f n) * (N : ℝ)⁻¹)) * (N : ℝ)⁻¹ := by
  have e : ∀ μ : ℝ, ∑ n, (f n - μ) * (f n - μ) = (∑ n, f n * f n) - 2 * μ * (∑ n, f n) + N * (μ * μ) := by
    intro μ
    have : ∀ n, (f n - μ) * (f n - μ) = f n * f n - 2 * μ * f n + μ * μ := fun n => by ring
    simp only [this, Finset.sum_add_distrib, Finset.sum_sub_distrib, ← Finset.mul_sum, Finset.sum_const,
      Finset.card_univ, Fintype.card_fin, nsmul_eq_mul]
    ring
  rw [e]
  field_simp
  ring

/-- A quotient of a real by the node count. -/
theorem div_n32 (a : ℝ) : Ideal.div (a : EReal) n32 = ((a * (50000 : ℝ)⁻¹ : ℝ) : EReal) := by
  have h0 : ((50000 : ℝ) : EReal) ≠ 0 := by exact_mod_cast (by norm_num : (50000 : ℝ) ≠ 0)
  rw [n32_eq, div_of_ne _ h0, ← EReal.coe_inv, ← EReal.coe_mul]

section column
variable (h : Tab 50000 128) (j : Fin 128) (f : Fin 50000 → ℝ) (hf : ∀ n, h n j = (f n : EReal))
include hf

theorem colSum_real : colSum h j = ((∑ n, f n : ℝ) : EReal) := by
  show (∑ n : Fin 50000, h n j) = _
  rw [coe_sum]; exact Finset.sum_congr rfl fun n _ => hf n

theorem colSumSq_real : colSumSq h j = ((∑ n, f n * f n : ℝ) : EReal) := by
  show (∑ n : Fin 50000, h n j * h n j) = _
  rw [coe_sum]; exact Finset.sum_congr rfl fun n _ => by rw [hf n, EReal.coe_mul]

theorem mu_real : mu h j = (((∑ n, f n) * (50000 : ℝ)⁻¹ : ℝ) : EReal) := by
  show Ideal.div (colSum h j) n32 = _
  rw [colSum_real h j f hf, div_n32]

theorem varK_real : varK h j = (((∑ n, f n * f n) * (50000 : ℝ)⁻¹
    - ((∑ n, f n) * (50000 : ℝ)⁻¹) * ((∑ n, f n) * (50000 : ℝ)⁻¹) : ℝ) : EReal) := by
  show Ideal.div (colSumSq h j) n32 - mu h j * mu h j = _
  rw [colSumSq_real h j f hf, div_n32, mu_real h j f hf, ← EReal.coe_mul, ← EReal.coe_sub]

theorem varR_real : varR h j = (((∑ n, (f n - (∑ n, f n) * (50000 : ℝ)⁻¹) * (f n - (∑ n, f n) * (50000 : ℝ)⁻¹))
    * (50000 : ℝ)⁻¹ : ℝ) : EReal) := by
  show Ideal.div (∑ n : Fin 50000, (h n j - mu h j) * (h n j - mu h j)) n32 = _
  have e : (∑ n : Fin 50000, (h n j - mu h j) * (h n j - mu h j))
      = ((∑ n, (f n - (∑ n, f n) * (50000 : ℝ)⁻¹) * (f n - (∑ n, f n) * (50000 : ℝ)⁻¹) : ℝ) : EReal) := by
    rw [coe_sum]
    exact Finset.sum_congr rfl fun n _ => by rw [hf n, mu_real h j f hf, ← EReal.coe_sub, ← EReal.coe_mul]
  rw [e, div_n32]

/-- The two variances of a real column agree. -/
theorem varK_eq_varR : varK h j = varR h j := by
  rw [varK_real h j f hf, varR_real h j f hf]
  have := real_var 50000 (by norm_num) f
  simp only [Nat.cast_ofNat] at this
  exact congrArg _ this

/-- The variance plus ε is a positive real. -/
theorem varR_eps_pos : ∃ v : ℝ, 0 < v ∧ varR h j + eps32 = (v : EReal) := by
  obtain ⟨e, he, hE⟩ := eps32_pos
  refine ⟨_ + e, ?_, by rw [varR_real h j f hf, hE, ← EReal.coe_add]⟩
  have : 0 ≤ (∑ n, (f n - (∑ n, f n) * (50000 : ℝ)⁻¹) * (f n - (∑ n, f n) * (50000 : ℝ)⁻¹)) * (50000 : ℝ)⁻¹ :=
    mul_nonneg (Finset.sum_nonneg fun n _ => mul_self_nonneg _) (by norm_num)
  linarith

end column

/-- The inverse square root of a positive real is a real. -/
theorem rsqrt_pos_real {v : ℝ} (hv : 0 < v) : Ideal.rsqrt (v : EReal) = (((Real.sqrt v)⁻¹ : ℝ) : EReal) := by
  rw [Ideal.rsqrt_coe, if_neg (not_lt.mpr hv.le), if_neg hv.ne']

/-- Normalise-and-cut: scale and shift against centre, scale, add — on a real table with real γ, β. -/
theorem actK_eq_actR (h : Tab 50000 128) (γ β : Vct 128) (hh : ∀ n j, Fin' (h n j)) (hγ : ∀ i, Fin' (γ i))
    (hβ : ∀ i, Fin' (β i)) : actK h γ β = actR h γ β := by
  funext n j
  choose f hf using fun n => (hh n j).exists_real
  obtain ⟨g, hg⟩ := (hγ (ix1 j)).exists_real
  obtain ⟨b, hb⟩ := (hβ (ix1 j)).exists_real
  obtain ⟨v, hv, hV⟩ := varR_eps_pos h j f hf
  show max (h n j * (γ (ix1 j) * Ideal.rsqrt (varK h j + eps32))
      + (β (ix1 j) - mu h j * (γ (ix1 j) * Ideal.rsqrt (varK h j + eps32)))) zero32
    = max (γ (ix1 j) * (h n j - mu h j) * Ideal.rsqrt (varR h j + eps32) + β (ix1 j)) zero32
  rw [varK_eq_varR h j f hf, hV, rsqrt_pos_real hv, hf n, mu_real h j f hf, hg, hb]
  refine congrArg (fun t => max t zero32) ?_
  simp only [← EReal.coe_mul, ← EReal.coe_sub, ← EReal.coe_add]
  exact congrArg _ (by ring)

/-- THE BRIDGE: for real inputs of the first layer and the normalisation, a neighbour sum that keeps real arrays real, and a
    nowhere-zero clipped degree, the product / scale-and-shift spelling and the quotient / centred spelling of the network
    are the same table. (The second layer's weights and bias are unconstrained.) -/
theorem outK_eq_outR (agg : Mat 50000 128 → Mat 50000 128) (C : Vct 50000)
    (x : Mat 50000 128) (Wl1 Wr1 : Mat 128 128) (b1 γ β : Vct 128) (Wl2 Wr2 : Mat 128 64) (b2 : Vct 64)
    (hagg : ∀ X : Mat 50000 128, (∀ i, Fin' (X i)) → ∀ i, Fin' (agg X i))
    (hC : ∀ n : Fin 50000, C (ix1 n) ≠ 0)
    (hx : ∀ i, Fin' (x i)) (hWl1 : ∀ i, Fin' (Wl1 i)) (hWr1 : ∀ i, Fin' (Wr1 i)) (hb1 : ∀ i, Fin' (b1 i))
    (hγ : ∀ i, Fin' (γ i)) (hβ : ∀ i, Fin' (β i)) :
    outK agg C x Wl1 Wr1 b1 γ β Wl2 Wr2 b2 = outR agg C x Wl1 Wr1 b1 γ β Wl2 Wr2 b2 := by
  have hh : hidK agg C x Wl1 Wr1 b1 = hidR agg C x Wl1 Wr1 b1 := by
    unfold hidK hidR; rw [meanP_eq_meanQ agg C hC]
  have hreal : ∀ n j, Fin' (hidR agg C x Wl1 Wr1 b1 n j) := fun n j =>
    fin'_dense _ _ _ _ _ (fun n k => fin'_div (hagg x hx _) (hC n)) (fun n k => hx _) hWl1 hWr1 hb1 n j
  unfold outK outR
  rw [hh, actK_eq_actR _ γ β hreal hγ hβ, meanP_eq_meanQ agg C hC]

end Cert.SageSpec

end
-- ==== Proof.lean ====
/-
  A two-layer mean-aggregation GraphSAGE with a training-mode batch normalisation and a cut at zero between the layers:
  the kernel's idealization and the reference compute the same table over the extended reals.

  Both programs turn the 50000 × 128 node features into the per-node neighbour sum by one and the same gather of the
  source rows and scatter-add at the destination rows of the 800000 edges, and both count the in-degree by a scatter-add
  of ones, clipped below at one. A layer is  mean · W_l + x · W_r + b.  The reference divides the neighbour sum by the
  clipped degree; the kernel multiplies it by the degree's reciprocal. Between the layers each column of the hidden array
  is normalised by its batch mean  μ = (Σₙ h) / N  and variance and cut at zero: the reference takes the variance as the
  mean of the squared deviations and applies  γ · (h − μ) · rsqrt (var + ε) + β;  the kernel takes it as
  (Σₙ h²) / N − μ²  and applies one scale  s = γ · rsqrt (var + ε)  and one shift  β − μ · s  per column.

  The two runs are read back as pure functions of the ten argument arrays: the reference's straight line of array
  operations composed stretch by stretch, the kernel's three regions and the host operations around them through their
  write-backs. Each is then identified, entry by entry, with one spelling of the network over the SAME neighbour-sum
  function and the SAME clipped degree (the two programs' spellings of those are one term up to the names of their
  dimension records). What remains is algebra on the extended reals between the two spellings: a quotient by a nonzero
  divisor is the product with its reciprocal; the mean of squares minus the squared mean is the mean of squared
  deviations; a common factor moves across a finite sum. These laws hold for REAL entries and fail at the infinities, and
  this is where the precondition is used: every float argument is finite, the neighbour sum of a real array is real
  (a finite sum of its entries and zeros), so the hidden array is real; and the clipped degree, a maximum with one, is
  never zero. The second layer's weights and bias enter both spellings alike and need no finiteness.

  The three frame conjuncts are the three runs with the result dropped; nothing was rewritten in idealizing the kernel,
  so the preservation conjunct is trivial.
-/
import proofs.«165321_j893353197863_1_alg».proof.Defs
import proofs.«165321_j893353197863_1_alg».proof.Proof.Gen.Kernel.Frame
import proofs.«165321_j893353197863_1_alg».proof.Proof.Gen.KernelIdeal.Frame
import proofs.«165321_j893353197863_1_alg».proof.Proof.Gen.ReferenceIdeal
import proofs.«165321_j893353197863_1_alg».proof.Proof.Gen.Pre_finite_inputs
import proofs.«165321_j893353197863_1_alg».proof.Proof.KRun
import proofs.«165321_j893353197863_1_alg».proof.Proof.KValue
import proofs.«165321_j893353197863_1_alg».proof.Proof.KGlue
import proofs.«165321_j893353197863_1_alg».proof.Proof.RefRun
import proofs.«165321_j893353197863_1_alg».proof.Proof.RefValue
import proofs.«165321_j893353197863_1_alg».proof.Proof.RefGlue
import proofs.«165321_j893353197863_1_alg».proof.Proof.PreReal
import proofs.«165321_j893353197863_1_alg».proof.Proof.Bridge

noncomputable section

namespace Cert.Proof

open Idealize.ShloMosaic Idealize.SL.Sem

/-- The kernel as printed runs and leaves its arguments as launched. -/
theorem frame_Kernel : Cert.frame_Kernel := fun m ρ _ => Cert.Kernel.Gen.frame m ρ

/-- So does its idealization. -/
theorem frame_KernelIdeal : Cert.frame_KernelIdeal := fun m ρ _ => Cert.KernelIdeal.Gen.frame m ρ

/-- So does the reference: its run with the result dropped. -/
theorem frame_ReferenceIdeal : Cert.frame_ReferenceIdeal := fun m ρ _ =>
  (θ_run Cert.ReferenceIdeal.defs _ _).mono (fun _ h c => (h c).2) (Cert.ReferenceIdeal.RefRun.run m ρ)

/-- Idealizing the kernel rewrote nothing. -/
theorem preserves : Cert.preserves_Kernel_KernelIdeal := trivial

/-- From memories agreeing on the arguments both idealized programs end with the quotient / centred spelling of the network,
    over the reference's neighbour sum and clipped degree of the kernel's own arguments, in their result arrays. -/
theorem algebraic : Cert.algebraic_KernelIdeal_ReferenceIdeal := by
  intro m ρ m' ρ' hpre hagree
  refine ⟨fun c => Cert.SageSpec.mat (Cert.SageSpec.outR
      (Cert.ReferenceIdeal.RefRun.aggR (m ((c.tc : Thread Cert.KernelIdeal.nD Cert.KernelIdeal.τ).loc Cert.KernelIdeal.main_arg1))) (Cert.ReferenceIdeal.RefRun.CR (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))), ?_, ?_⟩
  · refine (θ_run Cert.KernelIdeal.defs _ _).mono (fun _ h c => ⟨(h c).1.trans ?_, (h c).2⟩) (Cert.KernelIdeal.KRun.run_value (F := Ideal) m ρ)
    obtain ⟨hx, hWl1, hWr1, hb1, hγ, hβ⟩ := Cert.PreReal.real_inputs m hpre c
    refine (Cert.KernelIdeal.KValue.result_eq m ρ c).trans (congrArg Cert.SageSpec.mat ?_)
    rw [Cert.KGlue.aggK_eq, Cert.KGlue.CK_eq]
    exact Cert.SageSpec.outK_eq_outR _ _ _ _ _ _ _ _ _ _ _ (fun X hX => Cert.ReferenceIdeal.RefGlue.aggR_real _ X hX)
      (Cert.ReferenceIdeal.RefGlue.CR_ne_zero _) hx hWl1 hWr1 hb1 hγ hβ
  · refine (θ_run Cert.ReferenceIdeal.defs _ _).mono (fun _ h c => ⟨(h c).1.trans ?_, (h c).2⟩) (Cert.ReferenceIdeal.RefRun.run m' ρ')
    obtain ⟨h0, h1, h2, h3, h4, h5, h6, h7, h8, h9⟩ := hagree c
    rw [Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
